-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x768 : Shape := ⟨3, ![128, 128, 768]⟩
abbrev S768x768 : Shape := ⟨2, ![768, 768]⟩
abbrev S1x768 : Shape := ⟨2, ![1, 768]⟩
abbrev S768x384 : Shape := ⟨2, ![768, 384]⟩
abbrev S1x384 : Shape := ⟨2, ![1, 384]⟩
abbrev S_ : Shape := ⟨0, ![]⟩

class Facts : Prop where
  bcast_S_S128x128x768 : S_.BroadcastsInDim S128x128x768 (![] : Fin 0 → Fin S128x128x768.rank)
  reducesTo_S128x128x768_S_d0_1_2 : S128x128x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S1x768 : S_.BroadcastsInDim S1x768 (![] : Fin 0 → Fin S1x768.rank)
  reducesTo_S1x768_S_d0_1 : S1x768.ReducesTo [0, 1] S_
  bcast_S_S768x384 : S_.BroadcastsInDim S768x384 (![] : Fin 0 → Fin S768x384.rank)
  reducesTo_S768x384_S_d0_1 : S768x384.ReducesTo [0, 1] S_
  bcast_S_S1x384 : S_.BroadcastsInDim S1x384 (![] : Fin 0 → Fin S1x384.rank)
  reducesTo_S1x384_S_d0_1 : S1x384.ReducesTo [0, 1] S_

variable [Facts]

def fn_part1 {F : FTy → Type} [FloatOps F] (main_arg4 : FVec F S1x384 .f32) (main_v13 : IVec S_ 1) (main_v16 : IVec S768x384 1) : IVec S_ 1 :=
  let main_c_5 : IVec S_ 1 := constantI S_ 1 1#1
  let main_v17 : IVec S_ 1 := (fun x v => Host.reduce IntOp.andi x v reducesTo_S768x384_S_d0_1 h_S_) main_v16 main_c_5
  let main_v18 : IVec S_ 1 := andi main_v13 main_v17
  let main_v19 : FVec F S1x384 .f32 := Host.absf main_arg4
  let main_cst_6 : FVec F S_ .f32 := constant S_ .f32 0x7F800000#32
  let main_v20 : FVec F S1x384 .f32 := broadcastInDim S1x384 ![] bcast_S_S1x384 main_cst_6
  let main_v21 : IVec S1x384 1 := cmpf .olt main_v19 main_v20
  let main_c_7 : IVec S_ 1 := constantI S_ 1 1#1
  let main_v22 : IVec S_ 1 := (fun x v => Host.reduce IntOp.andi x v reducesTo_S1x384_S_d0_1 h_S_) main_v21 main_c_7
  let main_v23 : IVec S_ 1 := andi main_v18 main_v22
  main_v23

def fn {F : FTy → Type} [FloatOps F] (main_arg0 : FVec F S128x128x768 .f32) (main_arg1 : FVec F S768x768 .f32) (main_arg2 : FVec F S1x768 .f32) (main_arg3 : FVec F S768x384 .f32) (main_arg4 : FVec F S1x384 .f32) : IVec S_ 1 :=
  let main_v0 : FVec F S128x128x768 .f32 := Host.absf main_arg0
  let main_cst : FVec F S_ .f32 := constant S_ .f32 0x7F800000#32
  let main_v1 : FVec F S128x128x768 .f32 := broadcastInDim S128x128x768 ![] bcast_S_S128x128x768 main_cst
  let main_v2 : IVec S128x128x768 1 := cmpf .olt main_v0 main_v1
  let main_c : IVec S_ 1 := constantI S_ 1 1#1
  let main_v3 : IVec S_ 1 := (fun x v => Host.reduce IntOp.andi x v reducesTo_S128x128x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S1x768 .f32 := Host.absf main_arg2
  let main_cst_2 : FVec F S_ .f32 := constant S_ .f32 0x7F800000#32
  let main_v10 : FVec F S1x768 .f32 := broadcastInDim S1x768 ![] bcast_S_S1x768 main_cst_2
  let main_v11 : IVec S1x768 1 := cmpf .olt main_v9 main_v10
  let main_c_3 : IVec S_ 1 := constantI S_ 1 1#1
  let main_v12 : IVec S_ 1 := (fun x v => Host.reduce IntOp.andi x v reducesTo_S1x768_S_d0_1 h_S_) main_v11 main_c_3
  let main_v13 : IVec S_ 1 := andi main_v8 main_v12
  let main_v14 : FVec F S768x384 .f32 := Host.absf main_arg3
  let main_cst_4 : FVec F S_ .f32 := constant S_ .f32 0x7F800000#32
  let main_v15 : FVec F S768x384 .f32 := broadcastInDim S768x384 ![] bcast_S_S768x384 main_cst_4
  let main_v16 : IVec S768x384 1 := cmpf .olt main_v14 main_v15
  fn_part1 (F := F) main_arg4 main_v13 main_v16
-- ==== Kernel.lean ====
abbrev S128x128x768 : Shape := ⟨3, ![128, 128, 768]⟩
abbrev S768x768 : Shape := ⟨2, ![768, 768]⟩
abbrev S1x768 : Shape := ⟨2, ![1, 768]⟩
abbrev S768x384 : Shape := ⟨2, ![768, 384]⟩
abbrev S1x384 : Shape := ⟨2, ![1, 384]⟩
abbrev S128x384 : Shape := ⟨2, ![128, 384]⟩
abbrev S64x56x768 : Shape := ⟨3, ![64, 56, 768]⟩
abbrev S64x384 : Shape := ⟨2, ![64, 384]⟩
abbrev S64x768 : Shape := ⟨2, ![64, 768]⟩
abbrev S64 : Shape := ⟨1, ![64]⟩
abbrev S64x1 : Shape := ⟨2, ![64, 1]⟩

abbrev nBuf : Space → Nat
  | .hbm => 6
  | .vmem => 9
  | .smem => 0
  | _ => 0

abbrev bufTy : (tb : Table) → Fin (tcTables nBuf tb) → BufTy
  | .hbm, ⟨0, _⟩ => ⟨S128x128x768, .f32⟩
  | .hbm, ⟨1, _⟩ => ⟨S768x768, .f32⟩
  | .hbm, ⟨2, _⟩ => ⟨S1x768, .f32⟩
  | .hbm, ⟨3, _⟩ => ⟨S768x384, .f32⟩
  | .hbm, ⟨4, _⟩ => ⟨S1x384, .f32⟩
  | .hbm, ⟨5, _⟩ => ⟨S128x384, .f32⟩
  | .local _ .vmem, ⟨0, _⟩ => ⟨S64x56x768, .f32⟩
  | .local _ .vmem, ⟨1, _⟩ => ⟨S64x56x768, .f32⟩
  | .local _ .vmem, ⟨2, _⟩ => ⟨S768x768, .f32⟩
  | .local _ .vmem, ⟨3, _⟩ => ⟨S1x768, .f32⟩
  | .local _ .vmem, ⟨4, _⟩ => ⟨S768x384, .f32⟩
  | .local _ .vmem, ⟨5, _⟩ => ⟨S1x384, .f32⟩
  | .local _ .vmem, ⟨6, _⟩ => ⟨S64x384, .f32⟩
  | .local _ .vmem, ⟨7, _⟩ => ⟨S64x384, .f32⟩
  | .local _ .vmem, ⟨8, _⟩ => ⟨S64x768, .f32⟩
  | _, _ => ⟨S128x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 3], ![false, false]⟩

def k0_cond3 (i : grid0.Coords) : BitVec 1 :=
  let arg1 : BitVec 32 := BitVec.ofNat 32 (i 1).val
  let c2_i32 : BitVec 32 := 2#32
  let v15 : BitVec 1 := Scalar.cmpi .eq arg1 c2_i32
  let v16 : BitVec 32 := Scalar.extui v15
  let c0_i32_6 : BitVec 32 := 0#32
  let v17 : BitVec 1 := Scalar.cmpi .ne v16 c0_i32_6
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x56x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S64x56x768_S64x56x768_0_0_0 : ∀ a, (![0, 0, 0] : Fin 3 → Nat) a + S64x56x768.size a ≤ S64x56x768.size a
  h_S64x56x768 : 0 < S64x56x768.numel
  iota_S64x56x768_d1_w32 : S64x56x768.Iotas .tc 32 [1]
  reduces_S64x56x768_S64x768 : S64x56x768.Reduces [1] S64x768
  inb_S64x768_S64x768_0_0 : ∀ a, (![0, 0] : Fin 2 → Nat) a + S64x768.size a ≤ S64x768.size a
  h_S64x768 : 0 < S64x768.numel
  shapeCasts_S64x768_S64x768 : S64x768.ShapeCasts S64x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  broadcasts_S1x768_S64x768 : S1x768.Broadcasts S64x768
  inb_S768x384_S768x384_0_0 : ∀ a, (![0, 0] : Fin 2 → Nat) a + S768x384.size a ≤ S768x384.size a
  h_S768x384 : 0 < S768x384.numel
  inb_S1x384_S1x384_0_0 : ∀ a, (![0, 0] : Fin 2 → Nat) a + S1x384.size a ≤ S1x384.size a
  h_S1x384 : 0 < S1x384.numel
  broadcasts_S1x384_S64x384 : S1x384.Broadcasts S64x384
  reduces_S64x384_S64 : S64x384.Reduces [1] S64
  shapeCasts_S64_S64x1 : S64.ShapeCasts S64x1
  broadcasts_S64x1_S64x384 : S64x1.Broadcasts S64x384
  inb_S64x384_S64x384_0_0 : ∀ a, (![0, 0] : Fin 2 → Nat) a + S64x384.size a ≤ S64x384.size a
  h_S64x384 : 0 < S64x384.numel
  dot_S64x768_S768x768_S64x768_1_0_0_1_n_n_wf : DotDims.WF S64x768 S768x768 S64x768 [1] [0] [0] [1] [] []
  dot_S64x768_S768x384_S64x384_1_0_0_1_n_n_wf : DotDims.WF S64x768 S768x384 S64x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x56x768.size a < S128x128x768.size a
  hwx0_0 : ∀ i : grid0.Coords, EltTy.bits .f32 = 32 ∨ (Rect.unit (s := S128x128x768) (fun a => cc0_transform_0 i a * S64x56x768.size a) (fun a => (Pipeline.Clip.of (cc0_transform_0 i a) (S64x56x768.size a) (S128x128x768.size a)).extent (S64x56x768.size a)) fun a => Pipeline.Clip.inb (Pipeline.Clip.ok_of (hstart0_0 i a))).WholeWords (EltTy.packing .f32)
  hwxs0_0 : ∀ i : grid0.Coords, EltTy.bits .f32 = 32 ∨ (Rect.unit (s := S64x56x768) (fun _ => 0) (fun a => (Pipeline.Clip.of (cc0_transform_0 i a) (S64x56x768.size a) (S128x128x768.size a)).extent (S64x56x768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x384.size a ≤ S768x384.size a
  hwx0_3 : ∀ i : grid0.Coords, EltTy.bits .f32 = 32 ∨ (Rect.block (s := S768x384) S768x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x384.size a ≤ S128x384.size a
  hwx0_5 : ∀ i : grid0.Coords, EltTy.bits .f32 = 32 ∨ (Rect.block (s := S128x384) S64x384.size (cc0_transform_5 i) (hinb0_5 i)).WholeWords (EltTy.packing .f32)

variable [Facts₀]

def dot_S64x768_S768x768_S64x768_1_0_0_1_n_n : DotDims S64x768 S768x768 S64x768 where
  lhsContracting := [1]
  rhsContracting := [0]
  lhsNonContracting := [0]
  rhsNonContracting := [1]
  lhsBatch := []
  rhsBatch := []
  wf := dot_S64x768_S768x768_S64x768_1_0_0_1_n_n_wf
def dot_S64x768_S768x384_S64x384_1_0_0_1_n_n : DotDims S64x768 S768x384 S64x384 where
  lhsContracting := [1]
  rhsContracting := [0]
  lhsNonContracting := [0]
  rhsNonContracting := [1]
  lhsBatch := []
  rhsBatch := []
  wf := dot_S64x768_S768x384_S64x384_1_0_0_1_n_n_wf

abbrev win0_0 : Pipeline.Window sig grid0 :=
  Pipeline.Window.ofSpecClip (Memref.whole main_arg0) S64x56x768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S128x128x768 : Shape := ⟨3, ![128, 128, 768]⟩
abbrev S768x768 : Shape := ⟨2, ![768, 768]⟩
abbrev S1x768 : Shape := ⟨2, ![1, 768]⟩
abbrev S768x384 : Shape := ⟨2, ![768, 384]⟩
abbrev S1x384 : Shape := ⟨2, ![1, 384]⟩
abbrev S128x384 : Shape := ⟨2, ![128, 384]⟩
abbrev S64x64x768 : Shape := ⟨3, ![64, 64, 768]⟩
abbrev S64x384 : Shape := ⟨2, ![64, 384]⟩
abbrev S64x768 : Shape := ⟨2, ![64, 768]⟩
abbrev S64 : Shape := ⟨1, ![64]⟩
abbrev S64x1 : Shape := ⟨2, ![64, 1]⟩

abbrev nBuf : Space → Nat
  | .hbm => 6
  | .vmem => 9
  | .smem => 0
  | _ => 0

abbrev bufTy : (tb : Table) → Fin (tcTables nBuf tb) → BufTy
  | .hbm, ⟨0, _⟩ => ⟨S128x128x768, .f32⟩
  | .hbm, ⟨1, _⟩ => ⟨S768x768, .f32⟩
  | .hbm, ⟨2, _⟩ => ⟨S1x768, .f32⟩
  | .hbm, ⟨3, _⟩ => ⟨S768x384, .f32⟩
  | .hbm, ⟨4, _⟩ => ⟨S1x384, .f32⟩
  | .hbm, ⟨5, _⟩ => ⟨S128x384, .f32⟩
  | .local _ .vmem, ⟨0, _⟩ => ⟨S64x64x768, .f32⟩
  | .local _ .vmem, ⟨1, _⟩ => ⟨S64x64x768, .f32⟩
  | .local _ .vmem, ⟨2, _⟩ => ⟨S768x768, .f32⟩
  | .local _ .vmem, ⟨3, _⟩ => ⟨S1x768, .f32⟩
  | .local _ .vmem, ⟨4, _⟩ => ⟨S768x384, .f32⟩
  | .local _ .vmem, ⟨5, _⟩ => ⟨S1x384, .f32⟩
  | .local _ .vmem, ⟨6, _⟩ => ⟨S64x384, .f32⟩
  | .local _ .vmem, ⟨7, _⟩ => ⟨S64x384, .f32⟩
  | .local _ .vmem, ⟨8, _⟩ => ⟨S64x768, .f32⟩
  | _, _ => ⟨S128x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S64x768_S64x768_0_0 : ∀ a, (![0, 0] : Fin 2 → Nat) a + S64x768.size a ≤ S64x768.size a
  h_S64x768 : 0 < S64x768.numel
  shapeCasts_S64x768_S64x768 : S64x768.ShapeCasts S64x768
  inb_S64x64x768_S64x64x768_0_0_0 : ∀ a, (![0, 0, 0] : Fin 3 → Nat) a + S64x64x768.size a ≤ S64x64x768.size a
  h_S64x64x768 : 0 < S64x64x768.numel
  reduces_S64x64x768_S64x768 : S64x64x768.Reduces [1] S64x768
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  broadcasts_S1x768_S64x768 : S1x768.Broadcasts S64x768
  inb_S768x384_S768x384_0_0 : ∀ a, (![0, 0] : Fin 2 → Nat) a + S768x384.size a ≤ S768x384.size a
  h_S768x384 : 0 < S768x384.numel
  inb_S1x384_S1x384_0_0 : ∀ a, (![0, 0] : Fin 2 → Nat) a + S1x384.size a ≤ S1x384.size a
  h_S1x384 : 0 < S1x384.numel
  broadcasts_S1x384_S64x384 : S1x384.Broadcasts S64x384
  reduces_S64x384_S64 : S64x384.Reduces [1] S64
  shapeCasts_S64_S64x1 : S64.ShapeCasts S64x1
  broadcasts_S64x1_S64x384 : S64x1.Broadcasts S64x384
  inb_S64x384_S64x384_0_0 : ∀ a, (![0, 0] : Fin 2 → Nat) a + S64x384.size a ≤ S64x384.size a
  h_S64x384 : 0 < S64x384.numel
  dot_S64x768_S768x768_S64x768_1_0_0_1_n_n_wf : DotDims.WF S64x768 S768x768 S64x768 [1] [0] [0] [1] [] []
  dot_S64x768_S768x384_S64x384_1_0_0_1_n_n_wf : DotDims.WF S64x768 S768x384 S64x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x768.size a ≤ S128x128x768.size a
  hwx0_0 : ∀ i : grid0.Coords, EltTy.bits .f32 = 32 ∨ (Rect.block (s := S128x128x768) S64x64x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x384.size a ≤ S768x384.size a
  hwx0_3 : ∀ i : grid0.Coords, EltTy.bits .f32 = 32 ∨ (Rect.block (s := S768x384) S768x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x384.size a ≤ S128x384.size a
  hwx0_5 : ∀ i : grid0.Coords, EltTy.bits .f32 = 32 ∨ (Rect.block (s := S128x384) S64x384.size (cc0_transform_5 i) (hinb0_5 i)).WholeWords (EltTy.packing .f32)

variable [Facts₀]

def dot_S64x768_S768x768_S64x768_1_0_0_1_n_n : DotDims S64x768 S768x768 S64x768 where
  lhsContracting := [1]
  rhsContracting := [0]
  lhsNonContracting := [0]
  rhsNonContracting := [1]
  lhsBatch := []
  rhsBatch := []
  wf := dot_S64x768_S768x768_S64x768_1_0_0_1_n_n_wf
def dot_S64x768_S768x384_S64x384_1_0_0_1_n_n : DotDims S64x768 S768x384 S64x384 where
  lhsContracting := [1]
  rhsContracting := [0]
  lhsNonContracting := [0]
  rhsNonContracting := [1]
  lhsBatch := []
  rhsBatch := []
  wf := dot_S64x768_S768x384_S64x384_1_0_0_1_n_n_wf

abbrev win0_0 : Pipeline.Window sig grid0 :=
  Pipeline.Window.ofSpec (Memref.whole main_arg0) S64x64x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== Proof.WStage.lean ====
/-
  The sequence-tiled mean kernel, shared facts. The grid has six points t = 3·b + k: b the batch block
  (64 rows), k the sequence tile (56 positions; the third tile overhangs the 128 positions by 40). The body
  branches on k alone: k = 0 (the accumulator is set to the tile's row sums), k > 0 (the row sums are added
  to it) and k = 2 (the mean, the two layers and the log-softmax are stored to the output block). Here: the
  three conditions in closed form over the point, where the output window is idle, the staging memrefs the
  body is called with, and the region's invariant with the accumulator named.
-/
import proofs.«157860_g2000004684805239_pallasbulk_542_10_alg».proof.Proof.Gen.Kernel.Frame
import proofs.«157860_g2000004684805239_pallasbulk_542_10_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The three conditions, from the sequence coordinate -/

/-- k = 0: the accumulator is initialised. -/
abbrev condA (i : grid0.Coords) : Prop := (Scalar.cmpi .ne (Scalar.extui (Scalar.cmpi .eq (BitVec.ofNat 32 (i 1).val) 0#32)) 0#32) = 1#1
theorem hcondA : ∀ t : Fin cfg0.N, condA (grid0.coords t) ↔ t.val % 3 = 0 :=
  (by decide +kernel : ∀ t : Fin grid0.N, condA (grid0.coords t) ↔ t.val % 3 = 0)

/-- k > 0: the accumulator is added to. -/
abbrev condB (i : grid0.Coords) : Prop := (Scalar.cmpi .ne (Scalar.extui (Scalar.cmpi .sgt (BitVec.ofNat 32 (i 1).val) 0#32)) 0#32) = 1#1
theorem hcondB : ∀ t : Fin cfg0.N, condB (grid0.coords t) ↔ t.val % 3 ≠ 0 :=
  (by decide +kernel : ∀ t : Fin grid0.N, condB (grid0.coords t) ↔ t.val % 3 ≠ 0)

/-- k = 2: the last tile, where the output block is computed and stored. -/
abbrev condC (i : grid0.Coords) : Prop := k0_cond3 i = 1#1
theorem hcondC : ∀ t : Fin cfg0.N, condC (grid0.coords t) ↔ t.val % 3 = 2 :=
  (by decide +kernel : ∀ t : Fin grid0.N, condC (grid0.coords t) ↔ t.val % 3 = 2)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
/-- Off the last tile nothing is stored into the output block, and it is not written back there. -/
theorem idleAt5 : ∀ t : Fin cfg0.N, ¬condC (grid0.coords t) → cfg0.idle 5 (grid0.coords t) = true := by decide +kernel
theorem noFlush5 : ∀ t : Fin cfg0.N, ¬condC (grid0.coords t) → (cfg0.win 5).flush t = false := by decide +kernel
theorem liveAt5 : ∀ t : Fin cfg0.N, condC (grid0.coords t) → cfg0.idle 5 (grid0.coords t) = false := by decide +kernel
theorem loose0 : cfg0.loose 0 = true := rfl
theorem tight1 : cfg0.loose 1 = false := rfl
theorem tight2 : cfg0.loose 2 = false := rfl
theorem tight3 : cfg0.loose 3 = false := rfl
theorem tight4 : cfg0.loose 4 = false := rfl
theorem tight5 : cfg0.loose 5 = false := rfl

/-! ## The memrefs the body is called with -/

abbrev ms0 (t : Fin cfg0.N) : Memref sig .tc .vmem S64x56x768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S768x768 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x768 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S768x384 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x384 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x384 .f32 := win0_5.stage (cfg0.slots t 5)
abbrev hs5 (t : Fin cfg0.N) : (ms5 t).IsWhole := hstage0_5 ((cfg0.slots t 5).cast nbuf0_5)
/-- The accumulator: a whole scoped buffer of the kernel's own. -/
abbrev scM : Memref sig .tc .vmem S64x768 .f32 := Memref.whole cc0_scratch0

/-- The region's invariant with the accumulator as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The zero offsets of the whole-block accesses, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-- One whole-block store covers the accumulator; -/
theorem cover768 (w : S64x768.Idx → Elt F .f32) (y : S64x768.Idx) :
    ∃ p ∈ [(⟨Rect.unit ![0, 0] S64x768.size inb_S64x768_S64x768_0_0, w⟩ : View.Piece (Elt F) S64x768 .f32)], y ∈ p.1.set :=
  ⟨_, List.mem_singleton_self _, View.mem_set_unit_zero hz2 inb_S64x768_S64x768_0_0 y⟩
/-- and one covers the output block. -/
theorem cover384 (w : S64x384.Idx → Elt F .f32) (y : S64x384.Idx) :
    ∃ p ∈ [(⟨Rect.unit ![0, 0] S64x384.size inb_S64x384_S64x384_0_0, w⟩ : View.Piece (Elt F) S64x384 .f32)], y ∈ p.1.set :=
  ⟨_, List.mem_singleton_self _, View.mem_set_unit_zero hz2 inb_S64x384_S64x384_0_0 y⟩

end Cert.Kernel.Hand

end
-- ==== Proof.WRunA.lean ====
/-
  The body at a point of the first sequence tile (k = 0): the tile is loaded whole, its masked row sums are
  stored over the accumulator, whatever it held; the other buffers are handed back as they were found.
-/
import proofs.«157860_g2000004684805239_pallasbulk_542_10_alg».proof.Proof.WStage

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- At k = 0 the accumulator ends at the tile's masked row sums (the payload of its one store). -/
theorem runA (c : Dev nD) (i : grid0.Coords) (arg2 : Memref sig .tc .vmem S64x56x768 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S768x384 .f32) (harg5 : arg5.IsWhole) (arg6 : Memref sig .tc .vmem S1x384 .f32) (harg6 : arg6.IsWhole) (arg7 : Memref sig .tc .vmem S64x384 .f32) (harg7 : arg7.IsWhole) (arg8 : Memref sig .tc .vmem S64x768 .f32) (harg8 : arg8.IsWhole) (hcA : condA i) (hcB : ¬condB i) (hcC : ¬condC i)
    (x0 : Vec F S64x56x768 .f32) (x1 : Vec F S768x768 .f32) (x2 : Vec F S1x768 .f32) (x3 : Vec F S768x384 .f32) (x4 : Vec F S1x384 .f32) (xi5 : Vec F S64x384 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare (k0_pay2 i x0)) -∗ K ⟨⟩))
      ⊢ wp frame (wpE (defs₀ (F := F)) Variants.none c none) E (cc0__body i arg2 harg2 arg3 harg3 arg4 harg4 arg5 harg5 arg6 harg6 arg7 harg7 arg8 harg8) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hcA | exact hcB | exact hcC)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr
    swap; · iexact HS0
    ipureintro
    rw [View.read_writes_eq_canon _ _ _ (cover768 _), View.canon_unit_zero hz2]
    simp only [View.readAt_eq_ld, harg2.read_unread, View.ld_unit_zero (S := S64x56x768) hz3]

end Cert.Kernel.Hand

end
-- ==== Proof.WRunB.lean ====
/-
  The body at a point of the middle sequence tile (k = 1): the tile's masked row sums are added to what the
  accumulator held; nothing else changes.
-/
import proofs.«157860_g2000004684805239_pallasbulk_542_10_alg».proof.Proof.WStage

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- At k = 1 the accumulator ends at what it held plus the tile's masked row sums. -/
theorem runB (c : Dev nD) (i : grid0.Coords) (arg2 : Memref sig .tc .vmem S64x56x768 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S768x384 .f32) (harg5 : arg5.IsWhole) (arg6 : Memref sig .tc .vmem S1x384 .f32) (harg6 : arg6.IsWhole) (arg7 : Memref sig .tc .vmem S64x384 .f32) (harg7 : arg7.IsWhole) (arg8 : Memref sig .tc .vmem S64x768 .f32) (harg8 : arg8.IsWhole) (hcA : ¬condA i) (hcB : condB i) (hcC : ¬condC i)
    (x0 : Vec F S64x56x768 .f32) (x1 : Vec F S768x768 .f32) (x2 : Vec F S1x768 .f32) (x3 : Vec F S768x384 .f32) (x4 : Vec F S1x384 .f32) (xi5 : Vec F S64x384 .f32) (xs0 : Vec F S64x768 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare (k0_pay3 i x0 xs0)) -∗ K ⟨⟩))
      ⊢ wp frame (wpE (defs₀ (F := F)) Variants.none c none) E (cc0__body i arg2 harg2 arg3 harg3 arg4 harg4 arg5 harg5 arg6 harg6 arg7 harg7 arg8 harg8) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hcA | exact hcB | exact hcC)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr
    swap; · iexact HS0
    ipureintro
    rw [View.read_writes_eq_canon _ _ _ (cover768 _), View.canon_unit_zero hz2]
    simp only [View.readAt_eq_ld, harg2.read_unread, harg8.read_unread, View.ld_unit_zero (S := S64x56x768) hz3, View.ld_unit_zero (S := S64x768) hz2]

end Cert.Kernel.Hand

end
-- ==== Proof.WRunC.lean ====
/-
  The body at a point of the last sequence tile (k = 2): the tile's masked row sums are added to the
  accumulator, and the output block is stored: the log-softmax of the second layer of the rectified first layer
  of the accumulator scaled by 1/128, computed from the accumulator as just updated.
-/
import proofs.«157860_g2000004684805239_pallasbulk_542_10_alg».proof.Proof.WStage

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- At k = 2 the accumulator ends at what it held plus the tile's masked row sums, and the output block at the
    epilogue of THAT sum. -/
theorem runC (c : Dev nD) (i : grid0.Coords) (arg2 : Memref sig .tc .vmem S64x56x768 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S768x384 .f32) (harg5 : arg5.IsWhole) (arg6 : Memref sig .tc .vmem S1x384 .f32) (harg6 : arg6.IsWhole) (arg7 : Memref sig .tc .vmem S64x384 .f32) (harg7 : arg7.IsWhole) (arg8 : Memref sig .tc .vmem S64x768 .f32) (harg8 : arg8.IsWhole) (hcA : ¬condA i) (hcB : condB i) (hcC : condC i)
    (x0 : Vec F S64x56x768 .f32) (x1 : Vec F S768x768 .f32) (x2 : Vec F S1x768 .f32) (x3 : Vec F S768x384 .f32) (x4 : Vec F S1x384 .f32) (xs0 : Vec F S64x768 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 (k0_pay3 i x0 xs0) x1 x2 x3 x4) ∗ owns (c : Thread nD τ) arg8 fullShare (k0_pay3 i x0 xs0)) -∗ K ⟨⟩))
      ⊢ wp frame (wpE (defs₀ (F := F)) Variants.none c none) E (cc0__body i arg2 harg2 arg3 harg3 arg4 harg4 arg5 harg5 arg6 harg6 arg7 harg7 arg8 harg8) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hcA | exact hcB | exact hcC)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr
      swap; · iexact H5
      ipureintro
      sl_unfold_words
      rw [View.read_writes_eq_canon _ _ _ (cover384 _), View.canon_unit_zero hz2]
      simp only [View.readAt_eq_ld, harg2.read_unread, harg3.read_unread, harg4.read_unread, harg5.read_unread, harg6.read_unread, harg8.read_unread,
        View.ld_unit_zero (S := S64x56x768) hz3, View.ld_unit_zero (S := S64x768) hz2, View.ld_unit_zero (S := S768x768) hz2, View.ld_unit_zero (S := S1x768) hz2, View.ld_unit_zero (S := S768x384) hz2, View.ld_unit_zero (S := S1x384) hz2]
      exact congrArg (fun v => k0_pay4 v x1 x2 x3 x4) (View.readCov_unit_zero (S := S64x768) arg8.view hz2 inb_S64x768_S64x768_0_0 _)
    iexists _; isplitr
    swap; · iexact HS0
    ipureintro
    sl_unfold_words
    rw [View.read_writes_eq_canon _ _ _ (cover768 _), View.canon_unit_zero hz2]
    simp only [View.readAt_eq_ld, harg2.read_unread, harg8.read_unread, View.ld_unit_zero (S := S64x56x768) hz3, View.ld_unit_zero (S := S64x768) hz2]

end Cert.Kernel.Hand

end
-- ==== Proof.WMask.lean ====
/-
  The last sequence tile overhangs the array: positions 112..167 are staged, and only 112..127 exist. The body
  masks the tile before summing: position s of tile k is kept iff s < 128 - 56·k. For k = 0, 1 that is every
  position of the tile; for k = 2 the first sixteen — exactly the positions a fetch of the tile fills from the
  array. So the tile's masked row sums do not depend on what the staging buffer holds past the array's end.
-/
import proofs.«157860_g2000004684805239_pallasbulk_542_10_alg».proof.Proof.WStage

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The mask, decided: position `n` of tile `k` is kept iff it lies inside the array. -/
theorem mask_iff : ∀ (k : Fin 3) (n : Fin 56),
    (IntOp.cmpi .slt (BitVec.ofNat 32 (0 * 56 + n.val)) (Scalar.subi 128#32 (Scalar.muli (BitVec.ofNat 32 k.val) 56#32)) = 1#1)
      ↔ n.val < (if k.val = 2 then 16 else 56) := by decide +kernel

/-- What a fetch of the tile at point `t` moves: all 64 rows and 768 lanes, and the tile's positions inside the array. -/
theorem xsizes : ∀ t : Fin grid0.N, win0_0.xsize (grid0.coords t) 0 = 64 ∧ win0_0.xsize (grid0.coords t) 2 = 768
    ∧ win0_0.xsize (grid0.coords t) 1 = (if ((grid0.coords t) 1).val = 2 then 16 else 56) ∧ ((grid0.coords t) 1).val < 3 := by decide +kernel

/-- An index the mask keeps is one the fetch filled. -/
theorem mask_moved (t : Fin cfg0.N) (j : S64x56x768.Idx)
    (h : cmpi .slt (iota .tc S64x56x768 32 [1] iota_S64x56x768_d1_w32) (broadcast S64x56x768 (Scalar.subi 128#32 (Scalar.muli (BitVec.ofNat 32 ((grid0.coords t) 1).val) 56#32))) j = 1#1) :
    win0_0.moved (grid0.coords t) j = true := by
  rw [Window.moved_iff]
  obtain ⟨h0, h2, h1, hk⟩ := xsizes t
  have hj : (j 1).val < (if ((grid0.coords t) 1).val = 2 then 16 else 56) := (mask_iff ⟨((grid0.coords t) 1).val, hk⟩ (j 1)).mp h
  intro a
  match a with
  | ⟨0, _⟩ => show (j 0).val < win0_0.xsize (grid0.coords t) 0; rw [h0]; exact (j 0).isLt
  | ⟨1, _⟩ => show (j 1).val < win0_0.xsize (grid0.coords t) 1; rw [h1]; exact hj
  | ⟨2, _⟩ => show (j 2).val < win0_0.xsize (grid0.coords t) 2; rw [h2]; exact (j 2).isLt

/-- The masked tile is the same whatever filled the buffer past the array's end. -/
theorem select_fill (t : Fin cfg0.N) (d d' : S64x56x768.Idx → Elt F .f32) (g : (win0_0.xblock (grid0.coords t)).Idx → Elt F .f32)
    (z : S64x56x768.Idx → Elt F .f32) :
    select (cmpi .slt (iota .tc S64x56x768 32 [1] iota_S64x56x768_d1_w32) (broadcast S64x56x768 (Scalar.subi 128#32 (Scalar.muli (BitVec.ofNat 32 ((grid0.coords t) 1).val) 56#32))))
        (win0_0.fill (grid0.coords t) d g) z
      = select (cmpi .slt (iota .tc S64x56x768 32 [1] iota_S64x56x768_d1_w32) (broadcast S64x56x768 (Scalar.subi 128#32 (Scalar.muli (BitVec.ofNat 32 ((grid0.coords t) 1).val) 56#32))))
        (win0_0.fill (grid0.coords t) d' g) z := by
  funext j
  show Scalar.select _ _ _ = Scalar.select _ _ _
  unfold Scalar.select
  split
  · next hm =>
    have hmv := mask_moved t j hm
    unfold Window.fill; rw [dif_pos hmv, dif_pos hmv]
  · rfl

/-- So are its row sums, -/
theorem pay1_fill (t : Fin cfg0.N) (d d' : S64x56x768.Idx → Elt F .f32) (g : (win0_0.xblock (grid0.coords t)).Idx → Elt F .f32) :
    k0_pay1 (grid0.coords t) (win0_0.fill (grid0.coords t) d g) = k0_pay1 (grid0.coords t) (win0_0.fill (grid0.coords t) d' g) := by
  unfold k0_pay1
  show multiReduction .add [1] S64x768 (select _ (win0_0.fill (grid0.coords t) d g) _) 0x00000000#32 reduces_S64x56x768_S64x768 (.inl rfl) rfl
     = multiReduction .add [1] S64x768 (select _ (win0_0.fill (grid0.coords t) d' g) _) 0x00000000#32 reduces_S64x56x768_S64x768 (.inl rfl) rfl
  rw [select_fill t d d' g]

/-- and the accumulator's two updates. -/
theorem pay2_fill (t : Fin cfg0.N) (d d' : S64x56x768.Idx → Elt F .f32) (g : (win0_0.xblock (grid0.coords t)).Idx → Elt F .f32) :
    k0_pay2 (grid0.coords t) (win0_0.fill (grid0.coords t) d g) = k0_pay2 (grid0.coords t) (win0_0.fill (grid0.coords t) d' g) := by
  unfold k0_pay2; rw [pay1_fill t d d' g]
theorem pay3_fill (t : Fin cfg0.N) (d d' : S64x56x768.Idx → Elt F .f32) (g : (win0_0.xblock (grid0.coords t)).Idx → Elt F .f32)
    (acc : Vec F S64x768 .f32) :
    k0_pay3 (grid0.coords t) (win0_0.fill (grid0.coords t) d g) acc = k0_pay3 (grid0.coords t) (win0_0.fill (grid0.coords t) d' g) acc := by
  unfold k0_pay3; rw [pay1_fill t d d' g]

end Cert.Kernel.Hand

end
-- ==== Proof.WFrame.lean ====
/-
  The sequence-tiled mean kernel: its frame. After the body at point t = 3·b + k the accumulator holds the
  masked row sums of tiles 0..k of batch block b (`accAt`), whatever the staging buffer of the overhanging tile
  held past the array's end; at k = 2 the output block holds the epilogue of that sum (`outAt`). The region's
  invariant names the accumulator between points; the tile's window is stated on its part inside the array only.
-/
import proofs.«157860_g2000004684805239_pallasbulk_542_10_alg».proof.Proof.WRunA
import proofs.«157860_g2000004684805239_pallasbulk_542_10_alg».proof.Proof.WRunB
import proofs.«157860_g2000004684805239_pallasbulk_542_10_alg».proof.Proof.WRunC
import proofs.«157860_g2000004684805239_pallasbulk_542_10_alg».proof.Proof.WMask

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tile of `x` at point `t` as a whole staging block: its part inside the array, the zero word past the
    array's end (nothing reads it there: the mask). -/
def tile (c : Dev nD) (t : Fin cfg0.N) : Vec F S64x56x768 .f32 :=
  win0_0.fill (grid0.coords t) (fun _ => Scalar.ofBits .f32 0#32) (iblk m c 0 t)

/-- THE ACCUMULATION: what the accumulator holds after the body at position `n`: at the first tile of a batch
    block the tile's masked row sums, at the later tiles those added to what the point before left. -/
def accAt (c : Dev nD) : (n : ℕ) → n < cfg0.N → Vec F S64x768 .f32
  | 0, hn => k0_pay2 (grid0.coords ⟨0, hn⟩) (tile m c ⟨0, hn⟩)
  | n + 1, hn =>
    if (n + 1) % 3 = 0 then k0_pay2 (grid0.coords ⟨n + 1, hn⟩) (tile m c ⟨n + 1, hn⟩)
    else k0_pay3 (grid0.coords ⟨n + 1, hn⟩) (tile m c ⟨n + 1, hn⟩) (accAt c n (Nat.lt_of_succ_lt hn))

theorem accAt_first (c : Dev nD) (t : Fin cfg0.N) (h : t.val % 3 = 0) :
    accAt m c t.val t.isLt = k0_pay2 (grid0.coords t) (tile m c t) := by
  obtain ⟨n, hn⟩ := t
  cases n with
  | zero => rfl
  | succ n => exact if_pos h

theorem accAt_next (c : Dev nD) (t : Fin cfg0.N) (h : ¬t.val % 3 = 0) :
    accAt m c t.val t.isLt = k0_pay3 (grid0.coords t) (tile m c t) (accAt m c (t.val - 1) (Nat.lt_of_le_of_lt (Nat.sub_le _ _) t.isLt)) := by
  obtain ⟨n, hn⟩ := t
  cases n with
  | zero => exact absurd (Nat.zero_mod _) h
  | succ n => exact (if_neg h).trans rfl

/-- What the output block's staging buffer holds after the body at a last tile: the epilogue of the accumulator. -/
def outAt (c : Dev nD) (t : Fin cfg0.N) : Vec F S64x384 .f32 :=
  k0_pay4 (accAt m c t.val t.isLt) (iblk m c 1 t) (iblk m c 2 t) (iblk m c 3 t) (iblk m c 4 t)

/-- The region invariant before position `n`: at the start anything; afterwards the accumulator at what the point
    before left, and the generator register at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => tile m c t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = tile m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- The tile's buffer is fetched at every point: it holds the block's part inside the array, anything past it. -/
theorem before0 (c : Dev nD) (t : Fin cfg0.N) (d) :
    (dats m 0 c).before 0 t d = win0_0.fill (grid0.coords t) d (iblk m c 0 t) := by
  unfold Dat.before; rw [if_pos (fetch0_0 t)]; rfl
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## What the body leaves, window by window -/

theorem lv0 (c : Dev nD) (t : Fin cfg0.N) : (dats m 0 c).leaves 0 t
    = iprop(∃ d, owns (c : Thread nD τ) (ms0 t) fullShare (win0_0.fill (grid0.coords t) d (iblk m c 0 t))) := by
  have hx : win0_0.cut (grid0.coords t) (tile m c t) = iblk m c 0 t := win0_0.cut_fill _ _ _
  unfold Dat.leaves; rw [liveAt0 t]
  show iprop(∃ d, owns (c : Thread nD τ) (ms0 t) fullShare (win0_0.fill (grid0.coords t) d (win0_0.cut (grid0.coords t) (tile m c t)))) = _
  rw [hx]
theorem lv1 (c : Dev nD) (t : Fin cfg0.N) : (dats m 0 c).leaves 1 t = owns (c : Thread nD τ) (ms1 t) fullShare (iblk m c 1 t) := by
  unfold Dat.leaves; rw [liveAt1 t] <;> rfl
theorem lv2 (c : Dev nD) (t : Fin cfg0.N) : (dats m 0 c).leaves 2 t = owns (c : Thread nD τ) (ms2 t) fullShare (iblk m c 2 t) := by
  unfold Dat.leaves; rw [liveAt2 t] <;> rfl
theorem lv3 (c : Dev nD) (t : Fin cfg0.N) : (dats m 0 c).leaves 3 t = owns (c : Thread nD τ) (ms3 t) fullShare (iblk m c 3 t) := by
  unfold Dat.leaves; rw [liveAt3 t] <;> rfl
theorem lv4 (c : Dev nD) (t : Fin cfg0.N) : (dats m 0 c).leaves 4 t = owns (c : Thread nD τ) (ms4 t) fullShare (iblk m c 4 t) := by
  unfold Dat.leaves; rw [liveAt4 t] <;> rfl
theorem lv5 (c : Dev nD) (t : Fin cfg0.N) (hc : condC (grid0.coords t)) :
    (dats m 0 c).leaves 5 t = owns (c : Thread nD τ) (ms5 t) fullShare (outAt m c t) := by
  unfold Dat.leaves; rw [liveAt5 t hc] <;> rfl

/-- The accumulator as the body leaves it is `accAt`, whatever filled the tile's buffer past the array's end. -/
theorem acc_first (c : Dev nD) (t : Fin cfg0.N) (h : t.val % 3 = 0) (d : S64x56x768.Idx → Elt F .f32) :
    k0_pay2 (grid0.coords t) (win0_0.fill (grid0.coords t) d (iblk m c 0 t)) = accAt m c t.val t.isLt := by
  rw [accAt_first m c t h]; unfold tile; exact pay2_fill t _ _ _
theorem acc_next (c : Dev nD) (t : Fin cfg0.N) (h : ¬t.val % 3 = 0) (d : S64x56x768.Idx → Elt F .f32) :
    k0_pay3 (grid0.coords t) (win0_0.fill (grid0.coords t) d (iblk m c 0 t)) (accAt m c (t.val - 1) (Nat.lt_of_le_of_lt (Nat.sub_le _ _) t.isLt))
      = accAt m c t.val t.isLt := by
  rw [accAt_next m c t h]; unfold tile; exact pay3_fill t _ _ _ _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t)

set_option maxHeartbeats 3200000 in
/-- The body at any point, by the tile's position k = t mod 3. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [lv0 m c t, lv1 m c t, lv2 m c t, lv3 m c t, lv4 m c t]
  have hN : t.val < 6 := lt_of_lt_of_eq t.isLt (show cfg0.N = 6 from N_0)
  by_cases h0 : t.val % 3 = 0
  · have hcA : condA (grid0.coords t) := (hcondA t).mpr h0
    have hcB : ¬condB (grid0.coords t) := fun h => (hcondB t).mp h h0
    have hcC : ¬condC (grid0.coords t) := fun h => by have := (hcondC t).mp h; omega
    rw [Dat.leaves_idle (dats m 0 c) 5 t (idleAt5 t hcC) (noFlush5 t hcC)]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply (runA c (grid0.coords t) (ms0 t) (hs0 t) (ms1 t) (hs1 t) (ms2 t) (hs2 t) (ms3 t) (hs3 t) (ms4 t) (hs4 t) (ms5 t) (hs5 t) scM (Memref.isWhole_whole _) hcA hcB hcC (win0_0.fill (grid0.coords t) d0 (iblk m c 0 t)) (iblk m c 1 t) (iblk m c 2 t) (iblk m c 3 t) (iblk m c 4 t) ((dats m 0 c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hg]
      · isplitl [HS0]
        · rw [acc_first m c t h0 d0]; iexact HS0
        iexact Hg
      isplitl [Ho]; · iexact Ho
      isplitl [H0]; · iexists d0; iexact H0
      isplitl [H1]; · iexact H1
      isplitl [H2]; · iexact H2
      isplitl [H3]; · iexact H3
      isplitl [H4]; · iexact H4
      iexists d5; iexact H5
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (runA c (grid0.coords t) (ms0 t) (hs0 t) (ms1 t) (hs1 t) (ms2 t) (hs2 t) (ms3 t) (hs3 t) (ms4 t) (hs4 t) (ms5 t) (hs5 t) scM (Memref.isWhole_whole _) hcA hcB hcC (win0_0.fill (grid0.coords t) d0 (iblk m c 0 t)) (iblk m c 1 t) (iblk m c 2 t) (iblk m c 3 t) (iblk m c 4 t) ((dats m 0 c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, HS0⟩
      isplitl [HS0 Hg]
      · isplitl [HS0]
        · rw [acc_first m c t h0 d0]; iexact HS0
        iexact Hg
      isplitl [Ho]; · iexact Ho
      isplitl [H0]; · iexists d0; iexact H0
      isplitl [H1]; · iexact H1
      isplitl [H2]; · iexact H2
      isplitl [H3]; · iexact H3
      isplitl [H4]; · iexact H4
      iexists d5; iexact H5
  · have hcA : ¬condA (grid0.coords t) := fun h => h0 ((hcondA t).mp h)
    have hcB : condB (grid0.coords t) := (hcondB t).mpr h0
    have hz : t.val ≠ 0 := fun h => h0 (by rw [h])
    rw [PhiS_castSucc m c t, PhiS_pos m c _ _ hz]
    by_cases h2 : t.val % 3 = 2
    · have hcC : condC (grid0.coords t) := (hcondC t).mpr h2
      rw [lv5 m c t hcC]
      iintro ⟨⟨HS0, Hg⟩, Ho, ⟨%d0, H0⟩, ⟨%d1, H1⟩, ⟨%d2, H2⟩, ⟨%d3, H3⟩, ⟨%d4, H4⟩, ⟨%d5, H5⟩⟩
      iapply (runC c (grid0.coords t) (ms0 t) (hs0 t) (ms1 t) (hs1 t) (ms2 t) (hs2 t) (ms3 t) (hs3 t) (ms4 t) (hs4 t) (ms5 t) (hs5 t) scM (Memref.isWhole_whole _) hcA hcB hcC (win0_0.fill (grid0.coords t) d0 (iblk m c 0 t)) (iblk m c 1 t) (iblk m c 2 t) (iblk m c 3 t) (iblk m c 4 t) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      rw [acc_next m c t h0 d0]
      isplitl [HS0 Hg]
      · isplitl [HS0]
        · iexact HS0
        iexact Hg
      isplitl [Ho]; · iexact Ho
      isplitl [H0]; · iexists d0; iexact H0
      isplitl [H1]; · iexact H1
      isplitl [H2]; · iexact H2
      isplitl [H3]; · iexact H3
      isplitl [H4]; · iexact H4
      iexact H5
    · have hcC : ¬condC (grid0.coords t) := fun h => h2 ((hcondC t).mp h)
      rw [Dat.leaves_idle (dats m 0 c) 5 t (idleAt5 t hcC) (noFlush5 t hcC)]
      iintro ⟨⟨HS0, Hg⟩, Ho, ⟨%d0, H0⟩, ⟨%d1, H1⟩, ⟨%d2, H2⟩, ⟨%d3, H3⟩, ⟨%d4, H4⟩, ⟨%d5, H5⟩⟩
      iapply (runB c (grid0.coords t) (ms0 t) (hs0 t) (ms1 t) (hs1 t) (ms2 t) (hs2 t) (ms3 t) (hs3 t) (ms4 t) (hs4 t) (ms5 t) (hs5 t) scM (Memref.isWhole_whole _) hcA hcB hcC (win0_0.fill (grid0.coords t) d0 (iblk m c 0 t)) (iblk m c 1 t) (iblk m c 2 t) (iblk m c 3 t) (iblk m c 4 t) ((dats m 0 c).before 5 t d5) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      rw [acc_next m c t h0 d0]
      isplitl [HS0 Hg]
      · isplitl [HS0]
        · iexact HS0
        iexact Hg
      isplitl [Ho]; · iexact Ho
      isplitl [H0]; · iexists d0; iexact H0
      isplitl [H1]; · iexact H1
      isplitl [H2]; · iexact H2
      isplitl [H3]; · iexact H3
      isplitl [H4]; · iexact H4
      iexists d5; iexact H5

/-- The library's body obligation, at every point (the tile's window stated on its part inside the array). -/
theorem body_obligation (c : Dev nD) : BodyObligationLoose (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 6 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

/-! ## The run and the frame -/

set_option backward.isDefEq.respectTransparency.types false in
/-- Every weakly fair execution of @main terminates, every array of the pipeline ends at what the library computes
    from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The frame: the program runs and its five argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KStage.lean ====
/-
  The sequence-tiled mean kernel, shared facts. The grid has six points t = 3·b + k: b the batch block
  (64 rows), k the sequence tile (56 positions; the third tile overhangs the 128 positions by 40). The body
  branches on k alone: k = 0 (the accumulator is set to the tile's row sums), k > 0 (the row sums are added
  to it) and k = 2 (the mean, the two layers and the log-softmax are stored to the output block). Here: the
  three conditions in closed form over the point, where the output window is idle, the staging memrefs the
  body is called with, and the region's invariant with the accumulator named.
-/
import proofs.«157860_g2000004684805239_pallasbulk_542_10_alg».proof.Proof.Gen.KernelIdeal.Frame
import proofs.«157860_g2000004684805239_pallasbulk_542_10_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The three conditions, from the sequence coordinate -/

/-- k = 0: the accumulator is initialised. -/
abbrev condA (i : grid0.Coords) : Prop := (Scalar.cmpi .ne (Scalar.extui (Scalar.cmpi .eq (BitVec.ofNat 32 (i 1).val) 0#32)) 0#32) = 1#1
theorem hcondA : ∀ t : Fin cfg0.N, condA (grid0.coords t) ↔ t.val % 3 = 0 :=
  (by decide +kernel : ∀ t : Fin grid0.N, condA (grid0.coords t) ↔ t.val % 3 = 0)

/-- k > 0: the accumulator is added to. -/
abbrev condB (i : grid0.Coords) : Prop := (Scalar.cmpi .ne (Scalar.extui (Scalar.cmpi .sgt (BitVec.ofNat 32 (i 1).val) 0#32)) 0#32) = 1#1
theorem hcondB : ∀ t : Fin cfg0.N, condB (grid0.coords t) ↔ t.val % 3 ≠ 0 :=
  (by decide +kernel : ∀ t : Fin grid0.N, condB (grid0.coords t) ↔ t.val % 3 ≠ 0)

/-- k = 2: the last tile, where the output block is computed and stored. -/
abbrev condC (i : grid0.Coords) : Prop := k0_cond3 i = 1#1
theorem hcondC : ∀ t : Fin cfg0.N, condC (grid0.coords t) ↔ t.val % 3 = 2 :=
  (by decide +kernel : ∀ t : Fin grid0.N, condC (grid0.coords t) ↔ t.val % 3 = 2)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
/-- Off the last tile nothing is stored into the output block, and it is not written back there. -/
theorem idleAt5 : ∀ t : Fin cfg0.N, ¬condC (grid0.coords t) → cfg0.idle 5 (grid0.coords t) = true := by decide +kernel
theorem noFlush5 : ∀ t : Fin cfg0.N, ¬condC (grid0.coords t) → (cfg0.win 5).flush t = false := by decide +kernel
theorem liveAt5 : ∀ t : Fin cfg0.N, condC (grid0.coords t) → cfg0.idle 5 (grid0.coords t) = false := by decide +kernel
theorem loose0 : cfg0.loose 0 = true := rfl
theorem tight1 : cfg0.loose 1 = false := rfl
theorem tight2 : cfg0.loose 2 = false := rfl
theorem tight3 : cfg0.loose 3 = false := rfl
theorem tight4 : cfg0.loose 4 = false := rfl
theorem tight5 : cfg0.loose 5 = false := rfl

/-! ## The memrefs the body is called with -/

abbrev ms0 (t : Fin cfg0.N) : Memref sig .tc .vmem S64x56x768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S768x768 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x768 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S768x384 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x384 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x384 .f32 := win0_5.stage (cfg0.slots t 5)
abbrev hs5 (t : Fin cfg0.N) : (ms5 t).IsWhole := hstage0_5 ((cfg0.slots t 5).cast nbuf0_5)
/-- The accumulator: a whole scoped buffer of the kernel's own. -/
abbrev scM : Memref sig .tc .vmem S64x768 .f32 := Memref.whole cc0_scratch0

/-- The region's invariant with the accumulator as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The zero offsets of the whole-block accesses, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-- One whole-block store covers the accumulator; -/
theorem cover768 (w : S64x768.Idx → Elt F .f32) (y : S64x768.Idx) :
    ∃ p ∈ [(⟨Rect.unit ![0, 0] S64x768.size inb_S64x768_S64x768_0_0, w⟩ : View.Piece (Elt F) S64x768 .f32)], y ∈ p.1.set :=
  ⟨_, List.mem_singleton_self _, View.mem_set_unit_zero hz2 inb_S64x768_S64x768_0_0 y⟩
/-- and one covers the output block. -/
theorem cover384 (w : S64x384.Idx → Elt F .f32) (y : S64x384.Idx) :
    ∃ p ∈ [(⟨Rect.unit ![0, 0] S64x384.size inb_S64x384_S64x384_0_0, w⟩ : View.Piece (Elt F) S64x384 .f32)], y ∈ p.1.set :=
  ⟨_, List.mem_singleton_self _, View.mem_set_unit_zero hz2 inb_S64x384_S64x384_0_0 y⟩

end Cert.KernelIdeal.Hand

end
-- ==== Proof.KRunA.lean ====
/-
  The body at a point of the first sequence tile (k = 0): the tile is loaded whole, its masked row sums are
  stored over the accumulator, whatever it held; the other buffers are handed back as they were found.
-/
import proofs.«157860_g2000004684805239_pallasbulk_542_10_alg».proof.Proof.KStage

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- At k = 0 the accumulator ends at the tile's masked row sums (the payload of its one store). -/
theorem runA (c : Dev nD) (i : grid0.Coords) (arg2 : Memref sig .tc .vmem S64x56x768 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S768x384 .f32) (harg5 : arg5.IsWhole) (arg6 : Memref sig .tc .vmem S1x384 .f32) (harg6 : arg6.IsWhole) (arg7 : Memref sig .tc .vmem S64x384 .f32) (harg7 : arg7.IsWhole) (arg8 : Memref sig .tc .vmem S64x768 .f32) (harg8 : arg8.IsWhole) (hcA : condA i) (hcB : ¬condB i) (hcC : ¬condC i)
    (x0 : Vec F S64x56x768 .f32) (x1 : Vec F S768x768 .f32) (x2 : Vec F S1x768 .f32) (x3 : Vec F S768x384 .f32) (x4 : Vec F S1x384 .f32) (xi5 : Vec F S64x384 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare (k0_pay2 i x0)) -∗ K ⟨⟩))
      ⊢ wp frame (wpE (defs₀ (F := F)) Variants.none c none) E (cc0__body i arg2 harg2 arg3 harg3 arg4 harg4 arg5 harg5 arg6 harg6 arg7 harg7 arg8 harg8) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hcA | exact hcB | exact hcC)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr
    swap; · iexact HS0
    ipureintro
    rw [View.read_writes_eq_canon _ _ _ (cover768 _), View.canon_unit_zero hz2]
    simp only [View.readAt_eq_ld, harg2.read_unread, View.ld_unit_zero (S := S64x56x768) hz3]

end Cert.KernelIdeal.Hand

end
-- ==== Proof.KRunB.lean ====
/-
  The body at a point of the middle sequence tile (k = 1): the tile's masked row sums are added to what the
  accumulator held; nothing else changes.
-/
import proofs.«157860_g2000004684805239_pallasbulk_542_10_alg».proof.Proof.KStage

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- At k = 1 the accumulator ends at what it held plus the tile's masked row sums. -/
theorem runB (c : Dev nD) (i : grid0.Coords) (arg2 : Memref sig .tc .vmem S64x56x768 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S768x384 .f32) (harg5 : arg5.IsWhole) (arg6 : Memref sig .tc .vmem S1x384 .f32) (harg6 : arg6.IsWhole) (arg7 : Memref sig .tc .vmem S64x384 .f32) (harg7 : arg7.IsWhole) (arg8 : Memref sig .tc .vmem S64x768 .f32) (harg8 : arg8.IsWhole) (hcA : ¬condA i) (hcB : condB i) (hcC : ¬condC i)
    (x0 : Vec F S64x56x768 .f32) (x1 : Vec F S768x768 .f32) (x2 : Vec F S1x768 .f32) (x3 : Vec F S768x384 .f32) (x4 : Vec F S1x384 .f32) (xi5 : Vec F S64x384 .f32) (xs0 : Vec F S64x768 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare (k0_pay3 i x0 xs0)) -∗ K ⟨⟩))
      ⊢ wp frame (wpE (defs₀ (F := F)) Variants.none c none) E (cc0__body i arg2 harg2 arg3 harg3 arg4 harg4 arg5 harg5 arg6 harg6 arg7 harg7 arg8 harg8) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hcA | exact hcB | exact hcC)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr
    swap; · iexact HS0
    ipureintro
    rw [View.read_writes_eq_canon _ _ _ (cover768 _), View.canon_unit_zero hz2]
    simp only [View.readAt_eq_ld, harg2.read_unread, harg8.read_unread, View.ld_unit_zero (S := S64x56x768) hz3, View.ld_unit_zero (S := S64x768) hz2]

end Cert.KernelIdeal.Hand

end
-- ==== Proof.KRunC.lean ====
/-
  The body at a point of the last sequence tile (k = 2): the tile's masked row sums are added to the
  accumulator, and the output block is stored: the log-softmax of the second layer of the rectified first layer
  of the accumulator scaled by 1/128, computed from the accumulator as just updated.
-/
import proofs.«157860_g2000004684805239_pallasbulk_542_10_alg».proof.Proof.KStage

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- At k = 2 the accumulator ends at what it held plus the tile's masked row sums, and the output block at the
    epilogue of THAT sum. -/
theorem runC (c : Dev nD) (i : grid0.Coords) (arg2 : Memref sig .tc .vmem S64x56x768 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S768x384 .f32) (harg5 : arg5.IsWhole) (arg6 : Memref sig .tc .vmem S1x384 .f32) (harg6 : arg6.IsWhole) (arg7 : Memref sig .tc .vmem S64x384 .f32) (harg7 : arg7.IsWhole) (arg8 : Memref sig .tc .vmem S64x768 .f32) (harg8 : arg8.IsWhole) (hcA : ¬condA i) (hcB : condB i) (hcC : condC i)
    (x0 : Vec F S64x56x768 .f32) (x1 : Vec F S768x768 .f32) (x2 : Vec F S1x768 .f32) (x3 : Vec F S768x384 .f32) (x4 : Vec F S1x384 .f32) (xs0 : Vec F S64x768 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 (k0_pay3 i x0 xs0) x1 x2 x3 x4) ∗ owns (c : Thread nD τ) arg8 fullShare (k0_pay3 i x0 xs0)) -∗ K ⟨⟩))
      ⊢ wp frame (wpE (defs₀ (F := F)) Variants.none c none) E (cc0__body i arg2 harg2 arg3 harg3 arg4 harg4 arg5 harg5 arg6 harg6 arg7 harg7 arg8 harg8) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hcA | exact hcB | exact hcC)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr
      swap; · iexact H5
      ipureintro
      sl_unfold_words
      rw [View.read_writes_eq_canon _ _ _ (cover384 _), View.canon_unit_zero hz2]
      simp only [View.readAt_eq_ld, harg2.read_unread, harg3.read_unread, harg4.read_unread, harg5.read_unread, harg6.read_unread, harg8.read_unread,
        View.ld_unit_zero (S := S64x56x768) hz3, View.ld_unit_zero (S := S64x768) hz2, View.ld_unit_zero (S := S768x768) hz2, View.ld_unit_zero (S := S1x768) hz2, View.ld_unit_zero (S := S768x384) hz2, View.ld_unit_zero (S := S1x384) hz2]
      exact congrArg (fun v => k0_pay4 v x1 x2 x3 x4) (View.readCov_unit_zero (S := S64x768) arg8.view hz2 inb_S64x768_S64x768_0_0 _)
    iexists _; isplitr
    swap; · iexact HS0
    ipureintro
    sl_unfold_words
    rw [View.read_writes_eq_canon _ _ _ (cover768 _), View.canon_unit_zero hz2]
    simp only [View.readAt_eq_ld, harg2.read_unread, harg8.read_unread, View.ld_unit_zero (S := S64x56x768) hz3, View.ld_unit_zero (S := S64x768) hz2]

end Cert.KernelIdeal.Hand

end
-- ==== Proof.KMask.lean ====
/-
  The last sequence tile overhangs the array: positions 112..167 are staged, and only 112..127 exist. The body
  masks the tile before summing: position s of tile k is kept iff s < 128 - 56·k. For k = 0, 1 that is every
  position of the tile; for k = 2 the first sixteen — exactly the positions a fetch of the tile fills from the
  array. So the tile's masked row sums do not depend on what the staging buffer holds past the array's end.
-/
import proofs.«157860_g2000004684805239_pallasbulk_542_10_alg».proof.Proof.KStage

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The mask, decided: position `n` of tile `k` is kept iff it lies inside the array. -/
theorem mask_iff : ∀ (k : Fin 3) (n : Fin 56),
    (IntOp.cmpi .slt (BitVec.ofNat 32 (0 * 56 + n.val)) (Scalar.subi 128#32 (Scalar.muli (BitVec.ofNat 32 k.val) 56#32)) = 1#1)
      ↔ n.val < (if k.val = 2 then 16 else 56) := by decide +kernel

/-- What a fetch of the tile at point `t` moves: all 64 rows and 768 lanes, and the tile's positions inside the array. -/
theorem xsizes : ∀ t : Fin grid0.N, win0_0.xsize (grid0.coords t) 0 = 64 ∧ win0_0.xsize (grid0.coords t) 2 = 768
    ∧ win0_0.xsize (grid0.coords t) 1 = (if ((grid0.coords t) 1).val = 2 then 16 else 56) ∧ ((grid0.coords t) 1).val < 3 := by decide +kernel

/-- An index the mask keeps is one the fetch filled. -/
theorem mask_moved (t : Fin cfg0.N) (j : S64x56x768.Idx)
    (h : cmpi .slt (iota .tc S64x56x768 32 [1] iota_S64x56x768_d1_w32) (broadcast S64x56x768 (Scalar.subi 128#32 (Scalar.muli (BitVec.ofNat 32 ((grid0.coords t) 1).val) 56#32))) j = 1#1) :
    win0_0.moved (grid0.coords t) j = true := by
  rw [Window.moved_iff]
  obtain ⟨h0, h2, h1, hk⟩ := xsizes t
  have hj : (j 1).val < (if ((grid0.coords t) 1).val = 2 then 16 else 56) := (mask_iff ⟨((grid0.coords t) 1).val, hk⟩ (j 1)).mp h
  intro a
  match a with
  | ⟨0, _⟩ => show (j 0).val < win0_0.xsize (grid0.coords t) 0; rw [h0]; exact (j 0).isLt
  | ⟨1, _⟩ => show (j 1).val < win0_0.xsize (grid0.coords t) 1; rw [h1]; exact hj
  | ⟨2, _⟩ => show (j 2).val < win0_0.xsize (grid0.coords t) 2; rw [h2]; exact (j 2).isLt

/-- The masked tile is the same whatever filled the buffer past the array's end. -/
theorem select_fill (t : Fin cfg0.N) (d d' : S64x56x768.Idx → Elt F .f32) (g : (win0_0.xblock (grid0.coords t)).Idx → Elt F .f32)
    (z : S64x56x768.Idx → Elt F .f32) :
    select (cmpi .slt (iota .tc S64x56x768 32 [1] iota_S64x56x768_d1_w32) (broadcast S64x56x768 (Scalar.subi 128#32 (Scalar.muli (BitVec.ofNat 32 ((grid0.coords t) 1).val) 56#32))))
        (win0_0.fill (grid0.coords t) d g) z
      = select (cmpi .slt (iota .tc S64x56x768 32 [1] iota_S64x56x768_d1_w32) (broadcast S64x56x768 (Scalar.subi 128#32 (Scalar.muli (BitVec.ofNat 32 ((grid0.coords t) 1).val) 56#32))))
        (win0_0.fill (grid0.coords t) d' g) z := by
  funext j
  show Scalar.select _ _ _ = Scalar.select _ _ _
  unfold Scalar.select
  split
  · next hm =>
    have hmv := mask_moved t j hm
    unfold Window.fill; rw [dif_pos hmv, dif_pos hmv]
  · rfl

/-- So are its row sums, -/
theorem pay1_fill (t : Fin cfg0.N) (d d' : S64x56x768.Idx → Elt F .f32) (g : (win0_0.xblock (grid0.coords t)).Idx → Elt F .f32) :
    k0_pay1 (grid0.coords t) (win0_0.fill (grid0.coords t) d g) = k0_pay1 (grid0.coords t) (win0_0.fill (grid0.coords t) d' g) := by
  unfold k0_pay1
  show multiReduction .add [1] S64x768 (select _ (win0_0.fill (grid0.coords t) d g) _) 0x00000000#32 reduces_S64x56x768_S64x768 (.inl rfl) rfl
     = multiReduction .add [1] S64x768 (select _ (win0_0.fill (grid0.coords t) d' g) _) 0x00000000#32 reduces_S64x56x768_S64x768 (.inl rfl) rfl
  rw [select_fill t d d' g]

/-- and the accumulator's two updates. -/
theorem pay2_fill (t : Fin cfg0.N) (d d' : S64x56x768.Idx → Elt F .f32) (g : (win0_0.xblock (grid0.coords t)).Idx → Elt F .f32) :
    k0_pay2 (grid0.coords t) (win0_0.fill (grid0.coords t) d g) = k0_pay2 (grid0.coords t) (win0_0.fill (grid0.coords t) d' g) := by
  unfold k0_pay2; rw [pay1_fill t d d' g]
theorem pay3_fill (t : Fin cfg0.N) (d d' : S64x56x768.Idx → Elt F .f32) (g : (win0_0.xblock (grid0.coords t)).Idx → Elt F .f32)
    (acc : Vec F S64x768 .f32) :
    k0_pay3 (grid0.coords t) (win0_0.fill (grid0.coords t) d g) acc = k0_pay3 (grid0.coords t) (win0_0.fill (grid0.coords t) d' g) acc := by
  unfold k0_pay3; rw [pay1_fill t d d' g]

end Cert.KernelIdeal.Hand

end
-- ==== Proof.KFrame.lean ====
/-
  The sequence-tiled mean kernel: its frame. After the body at point t = 3·b + k the accumulator holds the
  masked row sums of tiles 0..k of batch block b (`accAt`), whatever the staging buffer of the overhanging tile
  held past the array's end; at k = 2 the output block holds the epilogue of that sum (`outAt`). The region's
  invariant names the accumulator between points; the tile's window is stated on its part inside the array only.
-/
import proofs.«157860_g2000004684805239_pallasbulk_542_10_alg».proof.Proof.KRunA
import proofs.«157860_g2000004684805239_pallasbulk_542_10_alg».proof.Proof.KRunB
import proofs.«157860_g2000004684805239_pallasbulk_542_10_alg».proof.Proof.KRunC
import proofs.«157860_g2000004684805239_pallasbulk_542_10_alg».proof.Proof.KMask

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tile of `x` at point `t` as a whole staging block: its part inside the array, the zero word past the
    array's end (nothing reads it there: the mask). -/
def tile (c : Dev nD) (t : Fin cfg0.N) : Vec F S64x56x768 .f32 :=
  win0_0.fill (grid0.coords t) (fun _ => Scalar.ofBits .f32 0#32) (iblk m c 0 t)

/-- THE ACCUMULATION: what the accumulator holds after the body at position `n`: at the first tile of a batch
    block the tile's masked row sums, at the later tiles those added to what the point before left. -/
def accAt (c : Dev nD) : (n : ℕ) → n < cfg0.N → Vec F S64x768 .f32
  | 0, hn => k0_pay2 (grid0.coords ⟨0, hn⟩) (tile m c ⟨0, hn⟩)
  | n + 1, hn =>
    if (n + 1) % 3 = 0 then k0_pay2 (grid0.coords ⟨n + 1, hn⟩) (tile m c ⟨n + 1, hn⟩)
    else k0_pay3 (grid0.coords ⟨n + 1, hn⟩) (tile m c ⟨n + 1, hn⟩) (accAt c n (Nat.lt_of_succ_lt hn))

theorem accAt_first (c : Dev nD) (t : Fin cfg0.N) (h : t.val % 3 = 0) :
    accAt m c t.val t.isLt = k0_pay2 (grid0.coords t) (tile m c t) := by
  obtain ⟨n, hn⟩ := t
  cases n with
  | zero => rfl
  | succ n => exact if_pos h

theorem accAt_next (c : Dev nD) (t : Fin cfg0.N) (h : ¬t.val % 3 = 0) :
    accAt m c t.val t.isLt = k0_pay3 (grid0.coords t) (tile m c t) (accAt m c (t.val - 1) (Nat.lt_of_le_of_lt (Nat.sub_le _ _) t.isLt)) := by
  obtain ⟨n, hn⟩ := t
  cases n with
  | zero => exact absurd (Nat.zero_mod _) h
  | succ n => exact (if_neg h).trans rfl

/-- What the output block's staging buffer holds after the body at a last tile: the epilogue of the accumulator. -/
def outAt (c : Dev nD) (t : Fin cfg0.N) : Vec F S64x384 .f32 :=
  k0_pay4 (accAt m c t.val t.isLt) (iblk m c 1 t) (iblk m c 2 t) (iblk m c 3 t) (iblk m c 4 t)

/-- The region invariant before position `n`: at the start anything; afterwards the accumulator at what the point
    before left, and the generator register at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => tile m c t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = tile m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- The tile's buffer is fetched at every point: it holds the block's part inside the array, anything past it. -/
theorem before0 (c : Dev nD) (t : Fin cfg0.N) (d) :
    (dats m 0 c).before 0 t d = win0_0.fill (grid0.coords t) d (iblk m c 0 t) := by
  unfold Dat.before; rw [if_pos (fetch0_0 t)]; rfl
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## What the body leaves, window by window -/

theorem lv0 (c : Dev nD) (t : Fin cfg0.N) : (dats m 0 c).leaves 0 t
    = iprop(∃ d, owns (c : Thread nD τ) (ms0 t) fullShare (win0_0.fill (grid0.coords t) d (iblk m c 0 t))) := by
  have hx : win0_0.cut (grid0.coords t) (tile m c t) = iblk m c 0 t := win0_0.cut_fill _ _ _
  unfold Dat.leaves; rw [liveAt0 t]
  show iprop(∃ d, owns (c : Thread nD τ) (ms0 t) fullShare (win0_0.fill (grid0.coords t) d (win0_0.cut (grid0.coords t) (tile m c t)))) = _
  rw [hx]
theorem lv1 (c : Dev nD) (t : Fin cfg0.N) : (dats m 0 c).leaves 1 t = owns (c : Thread nD τ) (ms1 t) fullShare (iblk m c 1 t) := by
  unfold Dat.leaves; rw [liveAt1 t] <;> rfl
theorem lv2 (c : Dev nD) (t : Fin cfg0.N) : (dats m 0 c).leaves 2 t = owns (c : Thread nD τ) (ms2 t) fullShare (iblk m c 2 t) := by
  unfold Dat.leaves; rw [liveAt2 t] <;> rfl
theorem lv3 (c : Dev nD) (t : Fin cfg0.N) : (dats m 0 c).leaves 3 t = owns (c : Thread nD τ) (ms3 t) fullShare (iblk m c 3 t) := by
  unfold Dat.leaves; rw [liveAt3 t] <;> rfl
theorem lv4 (c : Dev nD) (t : Fin cfg0.N) : (dats m 0 c).leaves 4 t = owns (c : Thread nD τ) (ms4 t) fullShare (iblk m c 4 t) := by
  unfold Dat.leaves; rw [liveAt4 t] <;> rfl
theorem lv5 (c : Dev nD) (t : Fin cfg0.N) (hc : condC (grid0.coords t)) :
    (dats m 0 c).leaves 5 t = owns (c : Thread nD τ) (ms5 t) fullShare (outAt m c t) := by
  unfold Dat.leaves; rw [liveAt5 t hc] <;> rfl

/-- The accumulator as the body leaves it is `accAt`, whatever filled the tile's buffer past the array's end. -/
theorem acc_first (c : Dev nD) (t : Fin cfg0.N) (h : t.val % 3 = 0) (d : S64x56x768.Idx → Elt F .f32) :
    k0_pay2 (grid0.coords t) (win0_0.fill (grid0.coords t) d (iblk m c 0 t)) = accAt m c t.val t.isLt := by
  rw [accAt_first m c t h]; unfold tile; exact pay2_fill t _ _ _
theorem acc_next (c : Dev nD) (t : Fin cfg0.N) (h : ¬t.val % 3 = 0) (d : S64x56x768.Idx → Elt F .f32) :
    k0_pay3 (grid0.coords t) (win0_0.fill (grid0.coords t) d (iblk m c 0 t)) (accAt m c (t.val - 1) (Nat.lt_of_le_of_lt (Nat.sub_le _ _) t.isLt))
      = accAt m c t.val t.isLt := by
  rw [accAt_next m c t h]; unfold tile; exact pay3_fill t _ _ _ _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t)

set_option maxHeartbeats 3200000 in
/-- The body at any point, by the tile's position k = t mod 3. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [lv0 m c t, lv1 m c t, lv2 m c t, lv3 m c t, lv4 m c t]
  have hN : t.val < 6 := lt_of_lt_of_eq t.isLt (show cfg0.N = 6 from N_0)
  by_cases h0 : t.val % 3 = 0
  · have hcA : condA (grid0.coords t) := (hcondA t).mpr h0
    have hcB : ¬condB (grid0.coords t) := fun h => (hcondB t).mp h h0
    have hcC : ¬condC (grid0.coords t) := fun h => by have := (hcondC t).mp h; omega
    rw [Dat.leaves_idle (dats m 0 c) 5 t (idleAt5 t hcC) (noFlush5 t hcC)]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply (runA c (grid0.coords t) (ms0 t) (hs0 t) (ms1 t) (hs1 t) (ms2 t) (hs2 t) (ms3 t) (hs3 t) (ms4 t) (hs4 t) (ms5 t) (hs5 t) scM (Memref.isWhole_whole _) hcA hcB hcC (win0_0.fill (grid0.coords t) d0 (iblk m c 0 t)) (iblk m c 1 t) (iblk m c 2 t) (iblk m c 3 t) (iblk m c 4 t) ((dats m 0 c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hg]
      · isplitl [HS0]
        · rw [acc_first m c t h0 d0]; iexact HS0
        iexact Hg
      isplitl [Ho]; · iexact Ho
      isplitl [H0]; · iexists d0; iexact H0
      isplitl [H1]; · iexact H1
      isplitl [H2]; · iexact H2
      isplitl [H3]; · iexact H3
      isplitl [H4]; · iexact H4
      iexists d5; iexact H5
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (runA c (grid0.coords t) (ms0 t) (hs0 t) (ms1 t) (hs1 t) (ms2 t) (hs2 t) (ms3 t) (hs3 t) (ms4 t) (hs4 t) (ms5 t) (hs5 t) scM (Memref.isWhole_whole _) hcA hcB hcC (win0_0.fill (grid0.coords t) d0 (iblk m c 0 t)) (iblk m c 1 t) (iblk m c 2 t) (iblk m c 3 t) (iblk m c 4 t) ((dats m 0 c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, HS0⟩
      isplitl [HS0 Hg]
      · isplitl [HS0]
        · rw [acc_first m c t h0 d0]; iexact HS0
        iexact Hg
      isplitl [Ho]; · iexact Ho
      isplitl [H0]; · iexists d0; iexact H0
      isplitl [H1]; · iexact H1
      isplitl [H2]; · iexact H2
      isplitl [H3]; · iexact H3
      isplitl [H4]; · iexact H4
      iexists d5; iexact H5
  · have hcA : ¬condA (grid0.coords t) := fun h => h0 ((hcondA t).mp h)
    have hcB : condB (grid0.coords t) := (hcondB t).mpr h0
    have hz : t.val ≠ 0 := fun h => h0 (by rw [h])
    rw [PhiS_castSucc m c t, PhiS_pos m c _ _ hz]
    by_cases h2 : t.val % 3 = 2
    · have hcC : condC (grid0.coords t) := (hcondC t).mpr h2
      rw [lv5 m c t hcC]
      iintro ⟨⟨HS0, Hg⟩, Ho, ⟨%d0, H0⟩, ⟨%d1, H1⟩, ⟨%d2, H2⟩, ⟨%d3, H3⟩, ⟨%d4, H4⟩, ⟨%d5, H5⟩⟩
      iapply (runC c (grid0.coords t) (ms0 t) (hs0 t) (ms1 t) (hs1 t) (ms2 t) (hs2 t) (ms3 t) (hs3 t) (ms4 t) (hs4 t) (ms5 t) (hs5 t) scM (Memref.isWhole_whole _) hcA hcB hcC (win0_0.fill (grid0.coords t) d0 (iblk m c 0 t)) (iblk m c 1 t) (iblk m c 2 t) (iblk m c 3 t) (iblk m c 4 t) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      rw [acc_next m c t h0 d0]
      isplitl [HS0 Hg]
      · isplitl [HS0]
        · iexact HS0
        iexact Hg
      isplitl [Ho]; · iexact Ho
      isplitl [H0]; · iexists d0; iexact H0
      isplitl [H1]; · iexact H1
      isplitl [H2]; · iexact H2
      isplitl [H3]; · iexact H3
      isplitl [H4]; · iexact H4
      iexact H5
    · have hcC : ¬condC (grid0.coords t) := fun h => h2 ((hcondC t).mp h)
      rw [Dat.leaves_idle (dats m 0 c) 5 t (idleAt5 t hcC) (noFlush5 t hcC)]
      iintro ⟨⟨HS0, Hg⟩, Ho, ⟨%d0, H0⟩, ⟨%d1, H1⟩, ⟨%d2, H2⟩, ⟨%d3, H3⟩, ⟨%d4, H4⟩, ⟨%d5, H5⟩⟩
      iapply (runB c (grid0.coords t) (ms0 t) (hs0 t) (ms1 t) (hs1 t) (ms2 t) (hs2 t) (ms3 t) (hs3 t) (ms4 t) (hs4 t) (ms5 t) (hs5 t) scM (Memref.isWhole_whole _) hcA hcB hcC (win0_0.fill (grid0.coords t) d0 (iblk m c 0 t)) (iblk m c 1 t) (iblk m c 2 t) (iblk m c 3 t) (iblk m c 4 t) ((dats m 0 c).before 5 t d5) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      rw [acc_next m c t h0 d0]
      isplitl [HS0 Hg]
      · isplitl [HS0]
        · iexact HS0
        iexact Hg
      isplitl [Ho]; · iexact Ho
      isplitl [H0]; · iexists d0; iexact H0
      isplitl [H1]; · iexact H1
      isplitl [H2]; · iexact H2
      isplitl [H3]; · iexact H3
      isplitl [H4]; · iexact H4
      iexists d5; iexact H5

/-- The library's body obligation, at every point (the tile's window stated on its part inside the array). -/
theorem body_obligation (c : Dev nD) : BodyObligationLoose (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 6 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

/-! ## The run and the frame -/

set_option backward.isDefEq.respectTransparency.types false in
/-- Every weakly fair execution of @main terminates, every array of the pipeline ends at what the library computes
    from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The frame: the program runs and its five argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.KValue.lean ====
/- The sequence-tiled mean kernel, its value: the accumulator after a batch block's three tiles as the chain of
   masked row sums, each tile read at coordinates of the input, the result array after the run as one function of the
   blocks the grid points load, and the run re-posted at it. -/
import proofs.«157860_g2000004684805239_pallasbulk_542_10_alg».proof.Proof.KFrame
import Idealize.ShloMosaic.Lib.ValueIdx

set_option maxRecDepth 16384

noncomputable section

open Idealize.ShloMosaic Idealize.ShloMosaic.TcCoe Idealize.SL.Sem
open Idealize.ShloMosaic.Pipeline (Dat Window)
open Idealize.ShloMosaic.ValueIdx

namespace Cert.KernelIdeal.KValue

open Cert.KernelIdeal Cert.KernelIdeal.Gen Cert.KernelIdeal.Hand

variable {F : FTy → Type} [FloatOps F]

variable (m : (ℓ : Loc nD τ sig) → Buf (Elt F) ℓ)

/-! ## The grid -/

theorem pt_lt (b : Fin 2) (k : Fin 3) : 3 * b.val + k.val < cfg0.N := by
  rw [show cfg0.N = 6 from N_0]; omega

/-- The grid point of batch block `b` and sequence tile `k`. -/
abbrev pt (b : Fin 2) (k : Fin 3) : Fin cfg0.N := ⟨3 * b.val + k.val, pt_lt b k⟩

/-- The printed index maps and the sequence coordinate over the grid: the input tile follows (batch block, sequence
    tile), the weights stay, the output block follows the batch block. -/
theorem idx_facts : ∀ t : Fin cfg0.N,
    win0_0.index t (0 : Fin 3) = t.val / 3 ∧ win0_0.index t (1 : Fin 3) = t.val % 3 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 3 ∧ win0_5.index t (1 : Fin 2) = 0
    ∧ ((grid0.coords t) 1).val = t.val % 3 :=
  (by decide +kernel : ∀ t : Fin grid0.N, _)

/-- The sequence coordinate of point (b, k) is k. -/
theorem coords_pt (b : Fin 2) (k : Fin 3) : ((grid0.coords (pt b k)) 1).val = k.val := by
  obtain ⟨-, -, -, -, -, -, -, -, -, -, -, -, -, e⟩ := idx_facts (pt b k)
  rw [e]; show (3 * b.val + k.val) % 3 = k.val; omega

/-! ## The accumulator after a batch block's tiles -/

theorem accAt_congr (c : Dev nD) (n n' : ℕ) (h : n < cfg0.N) (h' : n' < cfg0.N) (e : n = n') :
    accAt m c n h = accAt m c n' h' := by subst e; rfl

theorem acc_pt0 (c : Dev nD) (b : Fin 2) :
    accAt m c (pt b 0).val (pt b 0).isLt = k0_pay2 (grid0.coords (pt b 0)) (tile m c (pt b 0)) :=
  accAt_first m c (pt b 0) (by show (3 * b.val + 0) % 3 = 0; omega)

theorem acc_pt1 (c : Dev nD) (b : Fin 2) :
    accAt m c (pt b 1).val (pt b 1).isLt
      = k0_pay3 (grid0.coords (pt b 1)) (tile m c (pt b 1)) (k0_pay2 (grid0.coords (pt b 0)) (tile m c (pt b 0))) :=
  (accAt_next m c (pt b 1) (by show ¬(3 * b.val + 1) % 3 = 0; omega)).trans
    (congrArg (k0_pay3 (grid0.coords (pt b 1)) (tile m c (pt b 1)))
      ((accAt_congr m c _ _ _ _ (by show 3 * b.val + 1 - 1 = 3 * b.val + 0; omega)).trans (acc_pt0 m c b)))

/-- After the last tile of batch block `b`: the three tiles' masked row sums, added in the grid's order. -/
theorem acc_pt2 (c : Dev nD) (b : Fin 2) :
    accAt m c (pt b 2).val (pt b 2).isLt
      = k0_pay3 (grid0.coords (pt b 2)) (tile m c (pt b 2))
          (k0_pay3 (grid0.coords (pt b 1)) (tile m c (pt b 1)) (k0_pay2 (grid0.coords (pt b 0)) (tile m c (pt b 0)))) :=
  (accAt_next m c (pt b 2) (by show ¬(3 * b.val + 2) % 3 = 0; omega)).trans
    (congrArg (k0_pay3 (grid0.coords (pt b 2)) (tile m c (pt b 2)))
      ((accAt_congr m c _ _ _ _ (by show 3 * b.val + 2 - 1 = 3 * b.val + 1; omega)).trans (acc_pt1 m c b)))

/-! ## The blocks at coordinates -/

/-- A position of the tile inside the array reads the input at rows `64 (t / 3) ..`, positions `56 (t % 3) ..`. -/
theorem tile_apply (c : Dev nD) (t : Fin cfg0.N) (j : S64x56x768.Idx) (k : S128x128x768.Idx)
    (hin : (j 1).val < (if ((grid0.coords t) 1).val = 2 then 16 else 56))
    (hk0 : (k 0).val = 64 * (t.val / 3) + (j 0).val) (hk1 : (k 1).val = 56 * (t.val % 3) + (j 1).val)
    (hk2 : (k 2).val = (j 2).val) :
    tile m c t j = (m ((c : Thread nD τ).loc main_arg0) : S128x128x768.Idx → Elt F .f32) k := by
  have hmv : win0_0.moved (grid0.coords t) j = true := by
    rw [Window.moved_iff]
    obtain ⟨h0, h2, h1, hk⟩ := xsizes t
    intro a
    match a with
    | ⟨0, _⟩ => show (j 0).val < win0_0.xsize (grid0.coords t) 0; rw [h0]; exact (j 0).isLt
    | ⟨1, _⟩ => show (j 1).val < win0_0.xsize (grid0.coords t) 1; rw [h1]; exact hin
    | ⟨2, _⟩ => show (j 2).val < win0_0.xsize (grid0.coords t) 2; rw [h2]; exact (j 2).isLt
  obtain ⟨e0, e1, e2, -⟩ := idx_facts t
  unfold tile Window.fill
  rw [dif_pos hmv]
  unfold iblk
  rw [View.read_apply]
  show V m c main_arg0 _ = m (c.tc.loc main_arg0) _
  unfold V
  congr 1
  funext a
  apply Fin.ext
  match a with
  | ⟨0, _⟩ => show win0_0.index t (0 : Fin 3) * 64 + 1 * (j 0).val = (k 0).val; rw [e0, hk0]; omega
  | ⟨1, _⟩ => show win0_0.index t (1 : Fin 3) * 56 + 1 * (j 1).val = (k 1).val; rw [e1, hk1]; omega
  | ⟨2, _⟩ => show win0_0.index t (2 : Fin 3) * 768 + 1 * (j 2).val = (k 2).val; rw [e2, hk2]; omega

theorem tile_ix (c : Dev nD) (b : Fin 2) (k : Fin 3) (r : Fin 64) (s : Fin 56) (h : Fin 768)
    (hs : 56 * k.val + s.val < 128) :
    tile m c (pt b k) (ix3 r s h)
      = (m ((c : Thread nD τ).loc main_arg0) : S128x128x768.Idx → Elt F .f32)
          (ix3 (⟨64 * b.val + r.val, by omega⟩ : Fin 128) (⟨56 * k.val + s.val, hs⟩ : Fin 128) h) :=
  tile_apply m c (pt b k) (ix3 r s h) _
    (by rw [coords_pt b k]; show s.val < _; split <;> omega)
    (by show 64 * b.val + r.val = 64 * ((3 * b.val + k.val) / 3) + r.val; omega)
    (by show 56 * k.val + s.val = 56 * ((3 * b.val + k.val) % 3) + s.val; omega) rfl

/-- The weight and bias windows' blocks are their whole arrays at every point. -/
theorem iblk1_eq (c : Dev nD) (t : Fin cfg0.N) :
    (iblk m c 1 t : Vec F S768x768 .f32) = (m ((c : Thread nD τ).loc main_arg1) : S768x768.Idx → Elt F .f32) := by
  obtain ⟨-, -, -, h0, h1, -⟩ := idx_facts t
  funext x
  unfold iblk
  rw [View.read_apply]
  show V m c main_arg1 _ = m (c.tc.loc main_arg1) _
  unfold V
  congr 1
  funext a
  apply Fin.ext
  match a with
  | ⟨0, _⟩ => show win0_1.index t (0 : Fin 2) * 768 + 1 * (x 0).val = (x 0).val; rw [h0]; omega
  | ⟨1, _⟩ => show win0_1.index t (1 : Fin 2) * 768 + 1 * (x 1).val = (x 1).val; rw [h1]; omega

theorem iblk2_eq (c : Dev nD) (t : Fin cfg0.N) :
    (iblk m c 2 t : Vec F S1x768 .f32) = (m ((c : Thread nD τ).loc main_arg2) : S1x768.Idx → Elt F .f32) := by
  obtain ⟨-, -, -, -, -, h0, h1, -⟩ := idx_facts t
  funext x
  unfold iblk
  rw [View.read_apply]
  show V m c main_arg2 _ = m (c.tc.loc main_arg2) _
  unfold V
  congr 1
  funext a
  apply Fin.ext
  match a with
  | ⟨0, _⟩ => show win0_2.index t (0 : Fin 2) * 1 + 1 * (x 0).val = (x 0).val; rw [h0]; omega
  | ⟨1, _⟩ => show win0_2.index t (1 : Fin 2) * 768 + 1 * (x 1).val = (x 1).val; rw [h1]; omega

theorem iblk3_eq (c : Dev nD) (t : Fin cfg0.N) :
    (iblk m c 3 t : Vec F S768x384 .f32) = (m ((c : Thread nD τ).loc main_arg3) : S768x384.Idx → Elt F .f32) := by
  obtain ⟨-, -, -, -, -, -, -, h0, h1, -⟩ := idx_facts t
  funext x
  unfold iblk
  rw [View.read_apply]
  show V m c main_arg3 _ = m (c.tc.loc main_arg3) _
  unfold V
  congr 1
  funext a
  apply Fin.ext
  match a with
  | ⟨0, _⟩ => show win0_3.index t (0 : Fin 2) * 768 + 1 * (x 0).val = (x 0).val; rw [h0]; omega
  | ⟨1, _⟩ => show win0_3.index t (1 : Fin 2) * 384 + 1 * (x 1).val = (x 1).val; rw [h1]; omega

theorem iblk4_eq (c : Dev nD) (t : Fin cfg0.N) :
    (iblk m c 4 t : Vec F S1x384 .f32) = (m ((c : Thread nD τ).loc main_arg4) : S1x384.Idx → Elt F .f32) := by
  obtain ⟨-, -, -, -, -, -, -, -, -, h0, h1, -⟩ := idx_facts t
  funext x
  unfold iblk
  rw [View.read_apply]
  show V m c main_arg4 _ = m (c.tc.loc main_arg4) _
  unfold V
  congr 1
  funext a
  apply Fin.ext
  match a with
  | ⟨0, _⟩ => show win0_4.index t (0 : Fin 2) * 1 + 1 * (x 0).val = (x 0).val; rw [h0]; omega
  | ⟨1, _⟩ => show win0_4.index t (1 : Fin 2) * 384 + 1 * (x 1).val = (x 1).val; rw [h1]; omega

/-! ## The result array -/

/-- The result array: row `64 b + r` is row `r` of the output block stored at batch block `b`'s last tile. -/
def result (c : Dev nD) : S128x384.Idx → Elt F .f32 := fun i =>
  outAt m c (pt ⟨(i 0).val / 64, by have h : (i 0).val < 128 := (i 0).isLt; omega⟩ 2)
    (ix2 (⟨(i 0).val % 64, Nat.mod_lt _ (by decide)⟩ : Fin 64) (⟨(i 1).val, (i 1).isLt⟩ : Fin 384))

theorem result_apply (c : Dev nD) (b : Fin 2) (i : S128x384.Idx) (x : S64x384.Idx)
    (h0 : (i 0).val = 64 * b.val + (x 0).val) (h1 : (i 1).val = (x 1).val) :
    result m c i = outAt m c (pt b 2) x := by
  have hx : (x 0).val < 64 := (x 0).isLt
  have hb : (⟨(i 0).val / 64, by have h : (i 0).val < 128 := (i 0).isLt; omega⟩ : Fin 2) = b :=
    Fin.ext (by show (i 0).val / 64 = b.val; omega)
  show outAt m c (pt ⟨(i 0).val / 64, _⟩ 2) (ix2 (⟨(i 0).val % 64, _⟩ : Fin 64) (⟨(i 1).val, _⟩ : Fin 384)) = _
  rw [hb]
  congr 1
  funext a
  apply Fin.ext
  match a with
  | ⟨0, _⟩ => show (i 0).val % 64 = (x 0).val; omega
  | ⟨1, _⟩ => exact h1

/-- What a flushing point writes back is its block of the result array. -/
theorem flushed_eq (c : Dev nD) (t : Fin cfg0.N) (hf : (cfg0.win 5).flush t = true) :
    (dats m 0 c).flushed 5 t = ((cfg0.win 5).blk t).view.read (Elt F) (result m c) := by
  have h2 : t.val % 3 = 2 := (flush0_5 t).mp hf
  have hN : cfg0.N = 6 := N_0
  obtain ⟨b, rfl⟩ : ∃ b : Fin 2, t = pt b 2 :=
    ⟨⟨t.val / 3, by have := t.isLt; omega⟩, Fin.ext (by show t.val = 3 * (t.val / 3) + 2; omega)⟩
  show (cfg0.win 5).cut (grid0.coords (pt b 2)) ((dats m 0 c).after 5 (pt b 2)) = _
  rw [after5]
  obtain ⟨-, -, -, -, -, -, -, -, -, -, -, e0, e1, -⟩ := idx_facts (pt b 2)
  funext y
  rw [View.read_apply]
  refine (result_apply m c b _ y ?_ ?_).symm
  · show win0_5.index (pt b 2) (0 : Fin 2) * 64 + 1 * (y 0).val = 64 * b.val + (y 0).val
    rw [e0]; show (3 * b.val + 2) / 3 * 64 + 1 * (y 0).val = _; omega
  · show win0_5.index (pt b 2) (1 : Fin 2) * 384 + 1 * (y 1).val = (y 1).val
    rw [e1]; omega

/-- An index of the result array is in point `t`'s block iff each coordinate is in the block's range. -/
theorem mem_blk5 (t : Fin cfg0.N) (i : S128x384.Idx) :
    i ∈ ((cfg0.win 5).blk t).view.set ↔ ∀ a : Fin 2, win0_5.index t a * S64x384.size a ≤ (i a).val ∧ (i a).val < win0_5.index t a * S64x384.size a + S64x384.size a := by
  show i ∈ ((View.whole main_v0).slice (win0_5.rect t)).set ↔ _
  rw [View.set_slice_whole, Rect.mem_set_unit]
  exact Iff.rfl

/-- Row `i` is written back at the last tile of batch block `i / 64`. -/
theorem cover5 (i : S128x384.Idx) :
    ∃ t : Fin cfg0.N, (cfg0.win 5).flush t = true ∧ i ∈ ((cfg0.win 5).blk t).view.set := by
  have h0 : (i 0).val < 128 := (i 0).isLt
  have h1 : (i 1).val < 384 := (i 1).isLt
  refine ⟨pt ⟨(i 0).val / 64, by omega⟩ 2, (flush0_5 _).mpr (by show (3 * ((i 0).val / 64) + 2) % 3 = 2; omega), ?_⟩
  rw [mem_blk5]
  obtain ⟨-, -, -, -, -, -, -, -, -, -, -, e0, e1, -⟩ := idx_facts (pt ⟨(i 0).val / 64, by omega⟩ 2)
  intro a
  match a with
  | ⟨0, _⟩ =>
    show win0_5.index _ (0 : Fin 2) * 64 ≤ (i 0).val ∧ (i 0).val < win0_5.index _ (0 : Fin 2) * 64 + 64
    rw [e0]; show (3 * ((i 0).val / 64) + 2) / 3 * 64 ≤ (i 0).val ∧ (i 0).val < (3 * ((i 0).val / 64) + 2) / 3 * 64 + 64; omega
  | ⟨1, _⟩ =>
    show win0_5.index _ (1 : Fin 2) * 384 ≤ (i 1).val ∧ (i 1).val < win0_5.index _ (1 : Fin 2) * 384 + 384
    rw [e1]; omega

/-- The result array after the run. -/
theorem final5 (c : Dev nD) : (dats m 0 c).arrAt 5 cfg0.N = result m c :=
  (dats m 0 c).arrAt_eq_of_cover 5 (result m c) (flushed_eq m c) cover5

/-- The result array at coordinates. -/
theorem final5_apply (c : Dev nD) (b : Fin 2) (r : Fin 64) (n : Fin 384) :
    ((dats m 0 c).arrAt 5 cfg0.N : S128x384.Idx → Elt F .f32) (ix2 (⟨64 * b.val + r.val, by omega⟩ : Fin 128) n)
      = k0_pay4 (accAt m c (pt b 2).val (pt b 2).isLt) (iblk m c 1 (pt b 2)) (iblk m c 2 (pt b 2)) (iblk m c 3 (pt b 2))
          (iblk m c 4 (pt b 2)) (ix2 r n) := by
  rw [final5]
  exact result_apply m c b _ (ix2 r n) rfl rfl

/-! ## The run -/

/-- The frame run re-posted: the result array named by the proof data, the arguments unchanged. -/
theorem run (ρ : Dev nD → PrngReg) :
    θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

/-- The same with the result array named. -/
theorem run_result (ρ : Dev nD → PrngReg) :
    θ_run defs (onTc (τ := τ) (main (F := F))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (final5 m c), (h c).2⟩) (run m ρ)

end Cert.KernelIdeal.KValue

end
-- ==== Proof.RefPieces.lean ====
/- The reference's per-case pieces read back as payloads: what each control case of the body leaves in the
   carried accumulator and in the output block, as the pure payload terms of the blocks it loads. -/
import proofs.«157860_g2000004684805239_pallasbulk_542_10_alg».proof.Proof.Gen.ReferenceIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- CASE A (first sequence step): the accumulator is zeroed, read back, and left at the zero block plus the
    tile's row sum. -/
theorem sout_A (c : Dev nD) (i : grid0.Coords) (arg2 : Memref sig .tc .vmem S64x64x768 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S768x384 .f32) (harg5 : arg5.IsWhole) (arg6 : Memref sig .tc .vmem S1x384 .f32) (harg6 : arg6.IsWhole) (arg7 : Memref sig .tc .vmem S64x384 .f32) (harg7 : arg7.IsWhole) (arg8 : Memref sig .tc .vmem S64x768 .f32) (harg8 : arg8.IsWhole) (hc0 : cond0_0 i) (hc1 : ¬cond0_1 i)
    (x0 : Vec F S64x64x768 .f32) (x1 : Vec F S768x768 .f32) (x2 : Vec F S1x768 .f32) (x3 : Vec F S768x384 .f32) (x4 : Vec F S1x384 .f32) :
    sout0_A_0 c i arg2 harg2 arg3 harg3 arg4 harg4 arg5 harg5 arg6 harg6 arg7 harg7 arg8 harg8 hc0 hc1 x0 x1 x2 x3 x4 = k0_pay2 x0 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S64x768) hz2, View.readCov_unit_zero (S := S64x768) _ hz2]
  simp only [View.readAt_eq_ld, harg2.read_unread, View.ld_unit_zero (S := S64x64x768) hz3]

/-- CASE B (last sequence step), the accumulator: what the step before left plus the tile's row sum. -/
theorem sout_B (c : Dev nD) (i : grid0.Coords) (arg2 : Memref sig .tc .vmem S64x64x768 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S768x384 .f32) (harg5 : arg5.IsWhole) (arg6 : Memref sig .tc .vmem S1x384 .f32) (harg6 : arg6.IsWhole) (arg7 : Memref sig .tc .vmem S64x384 .f32) (harg7 : arg7.IsWhole) (arg8 : Memref sig .tc .vmem S64x768 .f32) (harg8 : arg8.IsWhole) (hc0 : ¬cond0_0 i) (hc1 : cond0_1 i)
    (x0 : Vec F S64x64x768 .f32) (x1 : Vec F S768x768 .f32) (x2 : Vec F S1x768 .f32) (x3 : Vec F S768x384 .f32) (x4 : Vec F S1x384 .f32) (xs0 : Vec F S64x768 .f32) :
    sout0_B_0 c i arg2 harg2 arg3 harg3 arg4 harg4 arg5 harg5 arg6 harg6 arg7 harg7 arg8 harg8 hc0 hc1 x0 x1 x2 x3 x4 xs0 = k0_pay2 x0 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero (S := S64x768) hz2]
  simp only [View.readAt_eq_ld, harg2.read_unread, harg8.read_unread, View.ld_unit_zero (S := S64x64x768) hz3, View.ld_unit_zero (S := S64x768) hz2]

/-- CASE B, the output block: the head of the network applied to THIS step's accumulator (the body reloads the
    accumulator after storing it). -/
theorem out_B (c : Dev nD) (i : grid0.Coords) (arg2 : Memref sig .tc .vmem S64x64x768 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S768x384 .f32) (harg5 : arg5.IsWhole) (arg6 : Memref sig .tc .vmem S1x384 .f32) (harg6 : arg6.IsWhole) (arg7 : Memref sig .tc .vmem S64x384 .f32) (harg7 : arg7.IsWhole) (arg8 : Memref sig .tc .vmem S64x768 .f32) (harg8 : arg8.IsWhole) (hc0 : ¬cond0_0 i) (hc1 : cond0_1 i)
    (x0 : Vec F S64x64x768 .f32) (x1 : Vec F S768x768 .f32) (x2 : Vec F S1x768 .f32) (x3 : Vec F S768x384 .f32) (x4 : Vec F S1x384 .f32) (xs0 : Vec F S64x768 .f32) :
    out0_B_5 c i arg2 harg2 arg3 harg3 arg4 harg4 arg5 harg5 arg6 harg6 arg7 harg7 arg8 harg8 hc0 hc1 x0 x1 x2 x3 x4 xs0 = k0_pay3 (k0_pay2 x0 xs0) x1 x2 x3 x4 := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero (S := S64x384) hz2, View.readCov_unit_zero (S := S64x768) _ hz2]
  simp only [View.readAt_eq_ld, harg2.read_unread, harg3.read_unread, harg4.read_unread, harg5.read_unread, harg6.read_unread, harg8.read_unread, View.ld_unit_zero (S := S64x64x768) hz3, View.ld_unit_zero (S := S64x768) hz2, View.ld_unit_zero (S := S768x768) hz2, View.ld_unit_zero (S := S1x768) hz2, View.ld_unit_zero (S := S768x384) hz2, View.ld_unit_zero (S := S1x384) hz2]

end Cert.ReferenceIdeal.RefValue

end
-- ==== Proof.RefBlocks.lean ====
/- The reference's accumulator and output block at each grid point as payloads of the blocks the point loads,
   and each window's block read at coordinates of its array. -/
import proofs.«157860_g2000004684805239_pallasbulk_542_10_alg».proof.Proof.RefPieces
import Idealize.ShloMosaic.Lib.ValueIdx

set_option maxRecDepth 16384

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen

variable {F : FTy → Type} [FloatOps F]

open Idealize.ShloMosaic.ValueIdx

variable (m : (ℓ : Loc nD τ sig) → Buf (Elt F) ℓ)

/-! ## The accumulator and the output block, point by point -/

/-- The accumulator left before point `t` by the point before it. -/
abbrev accBefore (c : Dev nD) (t : Fin cfg0.N) : Vec F S64x768 .f32 :=
  (outsAt0 m c (t.val - 1) (Nat.lt_of_le_of_lt (Nat.sub_le _ _) t.isLt)).2

/-- At a first sequence step (even point) the accumulator ends at zero plus the tile's row sums. -/
theorem acc_first (c : Dev nD) (t : Fin cfg0.N) (h0 : t.val % 2 = 0) :
    (outsAt0 m c t.val t.isLt).2 = k0_pay2 (iblk m c 0 t) (k0_pay1 (F := F)) := by
  have h1 : ¬t.val % 2 = 1 := by omega
  rw [outsAt0_A m c t h0 h1]
  dsimp only
  exact sout_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- At a last sequence step (odd point) the accumulator ends at what the point before left plus the tile's row sums. -/
theorem acc_last (c : Dev nD) (t : Fin cfg0.N) (h1 : t.val % 2 = 1) :
    (outsAt0 m c t.val t.isLt).2 = k0_pay2 (iblk m c 0 t) (accBefore m c t) := by
  have h0 : ¬t.val % 2 = 0 := by omega
  rw [outsAt0_B m c t h0 h1]
  dsimp only
  exact sout_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (accBefore m c t)

/-- At a last sequence step the output block is the head applied to the accumulator of the same point. -/
theorem out_last' (c : Dev nD) (t : Fin cfg0.N) (h1 : t.val % 2 = 1) :
    (outsAt0 m c t.val t.isLt).1 = k0_pay3 (k0_pay2 (iblk m c 0 t) (accBefore m c t)) (iblk m c 1 t) (iblk m c 2 t) (iblk m c 3 t) (iblk m c 4 t) := by
  have h0 : ¬t.val % 2 = 0 := by omega
  rw [outsAt0_B m c t h0 h1]
  dsimp only
  exact out_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (accBefore m c t)

theorem out_last (c : Dev nD) (t : Fin cfg0.N) (h1 : t.val % 2 = 1) :
    (outsAt0 m c t.val t.isLt).1 = k0_pay3 ((outsAt0 m c t.val t.isLt).2) (iblk m c 1 t) (iblk m c 2 t) (iblk m c 3 t) (iblk m c 4 t) :=
  (out_last' m c t h1).trans (congrArg (fun a => k0_pay3 a (iblk m c 1 t) (iblk m c 2 t) (iblk m c 3 t) (iblk m c 4 t)) (acc_last m c t h1).symm)

/-! ## The blocks at coordinates -/

/-- The grid point of batch block `b` and sequence step `k`. -/
theorem pt_lt (b k : Fin 2) : 2 * b.val + k.val < cfg0.N := by
  rw [show cfg0.N = 4 from N_0]; omega

abbrev pt (b k : Fin 2) : Fin cfg0.N := ⟨2 * b.val + k.val, pt_lt b k⟩

/-- The printed index maps over the grid: the input tile follows (batch block, sequence step), the weights stay,
    the output block follows the batch block. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 2 ∧ win0_5.index t (1 : Fin 2) = 0 :=
  (by decide +kernel : ∀ t : Fin grid0.N, _)

/-- The input tile at point `t` is rows `64 (t / 2) ..`, sequence positions `64 (t % 2) ..` of the input. -/
theorem iblk0_apply (c : Dev nD) (t : Fin cfg0.N) (x : S64x64x768.Idx) (k : S128x128x768.Idx)
    (hk0 : (k 0).val = 64 * (t.val / 2) + (x 0).val) (hk1 : (k 1).val = 64 * (t.val % 2) + (x 1).val)
    (hk2 : (k 2).val = (x 2).val) :
    (iblk m c 0 t : Vec F S64x64x768 .f32) x = (m ((c : Thread nD τ).loc main_arg0) : S128x128x768.Idx → Elt F .f32) k := by
  obtain ⟨h0, h1, h2, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 3) * 64 + 1 * (x 0).val = (k 0).val; rw [h0, hk0]; omega
  | ⟨1, _⟩ => show win0_0.index t (1 : Fin 3) * 64 + 1 * (x 1).val = (k 1).val; rw [h1, hk1]; omega
  | ⟨2, _⟩ => show win0_0.index t (2 : Fin 3) * 768 + 1 * (x 2).val = (k 2).val; rw [h2, hk2]; omega

theorem iblk0_ix (c : Dev nD) (b k : Fin 2) (r s : Fin 64) (h : Fin 768) :
    (iblk m c 0 (pt b k) : Vec F S64x64x768 .f32) (ix3 r s h)
      = (m ((c : Thread nD τ).loc main_arg0) : S128x128x768.Idx → Elt F .f32)
          (ix3 (⟨64 * b.val + r.val, by omega⟩ : Fin 128) (⟨64 * k.val + s.val, by omega⟩ : Fin 128) h) :=
  iblk0_apply m c (pt b k) (ix3 r s h) _
    (by show 64 * b.val + r.val = 64 * ((2 * b.val + k.val) / 2) + r.val; omega)
    (by show 64 * k.val + s.val = 64 * ((2 * b.val + k.val) % 2) + s.val; omega) rfl

/-- The weight and bias windows' blocks are their whole arrays at every point. -/
theorem iblk1_eq (c : Dev nD) (t : Fin cfg0.N) :
    (iblk m c 1 t : Vec F S768x768 .f32) = (m ((c : Thread nD τ).loc main_arg1) : S768x768.Idx → Elt F .f32) := by
  obtain ⟨-, -, -, h0, h1, -⟩ := idx_facts t
  funext x
  unfold iblk
  rw [View.read_apply]
  show V m c main_arg1 _ = m (c.tc.loc main_arg1) _
  unfold V
  congr 1
  funext a
  apply Fin.ext
  match a with
  | ⟨0, _⟩ => show win0_1.index t (0 : Fin 2) * 768 + 1 * (x 0).val = (x 0).val; rw [h0]; omega
  | ⟨1, _⟩ => show win0_1.index t (1 : Fin 2) * 768 + 1 * (x 1).val = (x 1).val; rw [h1]; omega

theorem iblk2_eq (c : Dev nD) (t : Fin cfg0.N) :
    (iblk m c 2 t : Vec F S1x768 .f32) = (m ((c : Thread nD τ).loc main_arg2) : S1x768.Idx → Elt F .f32) := by
  obtain ⟨-, -, -, -, -, h0, h1, -⟩ := idx_facts t
  funext x
  unfold iblk
  rw [View.read_apply]
  show V m c main_arg2 _ = m (c.tc.loc main_arg2) _
  unfold V
  congr 1
  funext a
  apply Fin.ext
  match a with
  | ⟨0, _⟩ => show win0_2.index t (0 : Fin 2) * 1 + 1 * (x 0).val = (x 0).val; rw [h0]; omega
  | ⟨1, _⟩ => show win0_2.index t (1 : Fin 2) * 768 + 1 * (x 1).val = (x 1).val; rw [h1]; omega

theorem iblk3_eq (c : Dev nD) (t : Fin cfg0.N) :
    (iblk m c 3 t : Vec F S768x384 .f32) = (m ((c : Thread nD τ).loc main_arg3) : S768x384.Idx → Elt F .f32) := by
  obtain ⟨-, -, -, -, -, -, -, h0, h1, -⟩ := idx_facts t
  funext x
  unfold iblk
  rw [View.read_apply]
  show V m c main_arg3 _ = m (c.tc.loc main_arg3) _
  unfold V
  congr 1
  funext a
  apply Fin.ext
  match a with
  | ⟨0, _⟩ => show win0_3.index t (0 : Fin 2) * 768 + 1 * (x 0).val = (x 0).val; rw [h0]; omega
  | ⟨1, _⟩ => show win0_3.index t (1 : Fin 2) * 384 + 1 * (x 1).val = (x 1).val; rw [h1]; omega

theorem iblk4_eq (c : Dev nD) (t : Fin cfg0.N) :
    (iblk m c 4 t : Vec F S1x384 .f32) = (m ((c : Thread nD τ).loc main_arg4) : S1x384.Idx → Elt F .f32) := by
  obtain ⟨-, -, -, -, -, -, -, -, -, h0, h1, -⟩ := idx_facts t
  funext x
  unfold iblk
  rw [View.read_apply]
  show V m c main_arg4 _ = m (c.tc.loc main_arg4) _
  unfold V
  congr 1
  funext a
  apply Fin.ext
  match a with
  | ⟨0, _⟩ => show win0_4.index t (0 : Fin 2) * 1 + 1 * (x 0).val = (x 0).val; rw [h0]; omega
  | ⟨1, _⟩ => show win0_4.index t (1 : Fin 2) * 384 + 1 * (x 1).val = (x 1).val; rw [h1]; omega

end Cert.ReferenceIdeal.RefValue

end
-- ==== Proof.RefFinal.lean ====
/- The reference's result array after the run, as one function of the blocks the grid points load; and the run
   re-posted at it. -/
import proofs.«157860_g2000004684805239_pallasbulk_542_10_alg».proof.Proof.RefBlocks

set_option maxRecDepth 16384

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen

variable {F : FTy → Type} [FloatOps F]

open Idealize.ShloMosaic.ValueIdx

variable (m : (ℓ : Loc nD τ sig) → Buf (Elt F) ℓ)

/-! ## The output block of one batch block -/

/-- Batch block `b`'s output block: the head applied to the accumulator after both sequence steps — zero plus the
    first tile's row sums plus the second tile's. -/
def headBlock (c : Dev nD) (b : Fin 2) : Vec F S64x384 .f32 :=
  k0_pay3 (k0_pay2 (iblk m c 0 (pt b 1)) (k0_pay2 (iblk m c 0 (pt b 0)) (k0_pay1 (F := F))))
    (iblk m c 1 (pt b 1)) (iblk m c 2 (pt b 1)) (iblk m c 3 (pt b 1)) (iblk m c 4 (pt b 1))

theorem outsAt_congr (c : Dev nD) (n n' : ℕ) (h : n < cfg0.N) (h' : n' < cfg0.N) (e : n = n') :
    outsAt0 m c n h = outsAt0 m c n' h' := by subst e; rfl

/-- Before the last step of batch block `b` the accumulator holds what its first step left. -/
theorem accBefore_pt (c : Dev nD) (b : Fin 2) :
    accBefore m c (pt b 1) = k0_pay2 (iblk m c 0 (pt b 0)) (k0_pay1 (F := F)) := by
  have e : accBefore m c (pt b 1) = (outsAt0 m c (pt b 0).val (pt b 0).isLt).2 :=
    congrArg Prod.snd (outsAt_congr m c _ _ _ _ (by show 2 * b.val + 1 - 1 = 2 * b.val + 0; omega))
  rw [e]
  exact acc_first m c (pt b 0) (by show (2 * b.val + 0) % 2 = 0; omega)

/-- What the output's staging buffer holds after the last step of batch block `b`. -/
theorem out_at_pt (c : Dev nD) (b : Fin 2) :
    (outsAt0 m c (pt b 1).val (pt b 1).isLt).1 = headBlock m c b := by
  rw [out_last' m c (pt b 1) (by show (2 * b.val + 1) % 2 = 1; omega), accBefore_pt]
  rfl

/-! ## The result array -/

/-- The result array: row `64 b + r` is row `r` of batch block `b`'s output block. -/
def result (c : Dev nD) : S128x384.Idx → Elt F .f32 := fun i =>
  headBlock m c ⟨(i 0).val / 64, by have h : (i 0).val < 128 := (i 0).isLt; omega⟩
    (ix2 (⟨(i 0).val % 64, Nat.mod_lt _ (by decide)⟩ : Fin 64) (⟨(i 1).val, (i 1).isLt⟩ : Fin 384))

theorem result_apply (c : Dev nD) (b : Fin 2) (i : S128x384.Idx) (x : S64x384.Idx)
    (h0 : (i 0).val = 64 * b.val + (x 0).val) (h1 : (i 1).val = (x 1).val) :
    result m c i = headBlock m c b x := by
  have hx : (x 0).val < 64 := (x 0).isLt
  have hb : (⟨(i 0).val / 64, by have h : (i 0).val < 128 := (i 0).isLt; omega⟩ : Fin 2) = b :=
    Fin.ext (by show (i 0).val / 64 = b.val; omega)
  show headBlock m c ⟨(i 0).val / 64, _⟩ (ix2 (⟨(i 0).val % 64, _⟩ : Fin 64) (⟨(i 1).val, _⟩ : Fin 384)) = _
  rw [hb]
  congr 1
  funext a
  apply Fin.ext
  match a with
  | ⟨0, _⟩ => show (i 0).val % 64 = (x 0).val; omega
  | ⟨1, _⟩ => exact h1

/-- What a flushing point writes back is its block of the result array. -/
theorem flushed_eq (c : Dev nD) (t : Fin cfg0.N) (hf : (cfg0.win 5).flush t = true) :
    (dats m 0 c).flushed 5 t = ((cfg0.win 5).blk t).view.read (Elt F) (result m c) := by
  have h1 : t.val % 2 = 1 := (flush0_5 t).mp hf
  have hN : cfg0.N = 4 := N_0
  obtain ⟨b, rfl⟩ : ∃ b : Fin 2, t = pt b 1 :=
    ⟨⟨t.val / 2, by have := t.isLt; omega⟩, Fin.ext (by show t.val = 2 * (t.val / 2) + 1; omega)⟩
  show (cfg0.win 5).cut (grid0.coords (pt b 1)) ((dats m 0 c).after 5 (pt b 1)) = _
  rw [after0_5, out_at_pt]
  obtain ⟨-, -, -, -, -, -, -, -, -, -, -, e0, e1⟩ := idx_facts (pt b 1)
  funext y
  rw [View.read_apply]
  refine (result_apply m c b _ y ?_ ?_).symm
  · show win0_5.index (pt b 1) (0 : Fin 2) * 64 + 1 * (y 0).val = 64 * b.val + (y 0).val
    rw [e0]; show (2 * b.val + 1) / 2 * 64 + 1 * (y 0).val = _; omega
  · show win0_5.index (pt b 1) (1 : Fin 2) * 384 + 1 * (y 1).val = (y 1).val
    rw [e1]; omega

/-- An index of the result array is in point `t`'s block iff each coordinate is in the block's range. -/
theorem mem_blk5 (t : Fin cfg0.N) (i : S128x384.Idx) :
    i ∈ ((cfg0.win 5).blk t).view.set ↔ ∀ a : Fin 2, win0_5.index t a * S64x384.size a ≤ (i a).val ∧ (i a).val < win0_5.index t a * S64x384.size a + S64x384.size a := by
  show i ∈ ((View.whole main_v0).slice (win0_5.rect t)).set ↔ _
  rw [View.set_slice_whole, Rect.mem_set_unit]
  exact Iff.rfl

/-- Row `i` is written back by the last step of batch block `i / 64`. -/
theorem cover5 (i : S128x384.Idx) :
    ∃ t : Fin cfg0.N, (cfg0.win 5).flush t = true ∧ i ∈ ((cfg0.win 5).blk t).view.set := by
  have h0 : (i 0).val < 128 := (i 0).isLt
  have h1 : (i 1).val < 384 := (i 1).isLt
  refine ⟨pt ⟨(i 0).val / 64, by omega⟩ 1, (flush0_5 _).mpr (by show (2 * ((i 0).val / 64) + 1) % 2 = 1; omega), ?_⟩
  rw [mem_blk5]
  obtain ⟨-, -, -, -, -, -, -, -, -, -, -, e0, e1⟩ := idx_facts (pt ⟨(i 0).val / 64, by omega⟩ 1)
  intro a
  match a with
  | ⟨0, _⟩ =>
    show win0_5.index _ (0 : Fin 2) * 64 ≤ (i 0).val ∧ (i 0).val < win0_5.index _ (0 : Fin 2) * 64 + 64
    rw [e0]; show (2 * ((i 0).val / 64) + 1) / 2 * 64 ≤ (i 0).val ∧ (i 0).val < (2 * ((i 0).val / 64) + 1) / 2 * 64 + 64; omega
  | ⟨1, _⟩ =>
    show win0_5.index _ (1 : Fin 2) * 384 ≤ (i 1).val ∧ (i 1).val < win0_5.index _ (1 : Fin 2) * 384 + 384
    rw [e1]; omega

/-- The result array after the run. -/
theorem final5 (c : Dev nD) : (dats m 0 c).arrAt 5 cfg0.N = result m c :=
  (dats m 0 c).arrAt_eq_of_cover 5 (result m c) (flushed_eq m c) cover5

/-- The result array at coordinates. -/
theorem final5_apply (c : Dev nD) (b : Fin 2) (r : Fin 64) (n : Fin 384) :
    ((dats m 0 c).arrAt 5 cfg0.N : S128x384.Idx → Elt F .f32) (ix2 (⟨64 * b.val + r.val, by omega⟩ : Fin 128) n)
      = k0_pay3 (k0_pay2 (iblk m c 0 (pt b 1)) (k0_pay2 (iblk m c 0 (pt b 0)) (k0_pay1 (F := F))))
          (iblk m c 1 (pt b 1)) (iblk m c 2 (pt b 1)) (iblk m c 3 (pt b 1)) (iblk m c 4 (pt b 1)) (ix2 r n) := by
  rw [final5]
  exact result_apply m c b _ (ix2 r n) rfl rfl

/-! ## The run -/

/-- The frame run re-posted: the result array at `result` (through `final5`), the arguments unchanged. -/
theorem run (ρ : Dev nD → PrngReg) :
    θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

/-- The same with the result array named. -/
theorem run_result (ρ : Dev nD → PrngReg) :
    θ_run defs (onTc (τ := τ) (main (F := F))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (final5 m c), (h c).2⟩) (run m ρ)

end Cert.ReferenceIdeal.RefValue

end
-- ==== Proof.MathReal.lean ====
import Idealize.ShloMosaic.PureOps.Ideal

/-! Sums of finite extended reals: the coercion from the reals commutes with finite sums, a finite sum of reals is a
    real, and a common real factor moves out of a sum of products. -/

noncomputable section

open scoped BigOperators

namespace Cert.Bridge

/-- The coercion of a finite sum of reals is the sum of the coercions. -/
theorem coe_sum {ι : Type*} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- A finite sum of reals is a real. -/
theorem sum_real {ι : Type*} (s : Finset ι) (f : ι → EReal) (hf : ∀ i, ∃ a : ℝ, f i = (a : EReal)) :
    ∃ a : ℝ, ∑ i ∈ s, f i = (a : EReal) := by
  choose g hg using hf
  exact ⟨∑ i ∈ s, g i, by rw [coe_sum]; exact Finset.sum_congr rfl fun i _ => hg i⟩

/-- Over finite entries, scaling the left factors of a sum of products by a real scales the sum:
    Σ (a k · c) · w k = (Σ a k · w k) · c. -/
theorem sum_scale {ι : Type*} [Fintype ι] (a w : ι → EReal) (c : EReal) (ha : ∀ k, ∃ r : ℝ, a k = (r : EReal))
    (hw : ∀ k, ∃ r : ℝ, w k = (r : EReal)) (hc : ∃ r : ℝ, c = (r : EReal)) :
    ∑ k, (a k * c) * w k = (∑ k, a k * w k) * c := by
  choose a' ha' using ha
  choose w' hw' using hw
  obtain ⟨c', rfl⟩ := hc
  have e1 : ∑ k, (a k * (c' : EReal)) * w k = ((∑ k, (a' k * c') * w' k : ℝ) : EReal) := by
    rw [coe_sum]
    exact Finset.sum_congr rfl fun k _ => by rw [ha' k, hw' k, EReal.coe_mul, EReal.coe_mul]
  have e2 : ∑ k, a k * w k = ((∑ k, a' k * w' k : ℝ) : EReal) := by
    rw [coe_sum]
    exact Finset.sum_congr rfl fun k _ => by rw [ha' k, hw' k, EReal.coe_mul]
  rw [e1, e2, ← EReal.coe_mul, Finset.sum_mul]
  exact congrArg _ (Finset.sum_congr rfl fun k _ => by ring)

end Cert.Bridge

end
-- ==== Proof.MathSum.lean ====
import proofs.«157860_g2000004684805239_pallasbulk_542_10_alg».proof.Proof.Gen.KernelIdeal.Skeleton
import proofs.«157860_g2000004684805239_pallasbulk_542_10_alg».proof.Proof.Gen.ReferenceIdeal.Skeleton
import proofs.«157860_g2000004684805239_pallasbulk_542_10_alg».proof.Proof.MathReal
import Idealize.ShloMosaic.Lib.ValueIdx
import Idealize.ShloMosaic.Lib.Pipeline.Value
import Idealize.ShloMosaic.PureOps.Ideal.Laws

/-! The accumulators of the two programs at the ideal values. The kernel sums the 128 sequence positions of a batch
    block in three tiles of 56 rows, of which the last counts only its first 16 rows (the others are masked to zero
    before the row sum); the reference sums them in two tiles of 64 rows, starting from zero. Both accumulators are
    the same sum over the 128 positions: addition of extended reals is commutative and associative, so no finiteness
    is needed for that; the sum is finite when every entry is. -/

noncomputable section

namespace Cert.Bridge

open Idealize.ShloMosaic Idealize.ShloMosaic.ValueIdx

/-! ## Words: the signed comparison of a tile's row number with the number of rows still in range -/

theorem cmp_all128 : ∀ s : Fin 56, IntOp.cmpi .slt (BitVec.ofNat 32 s.val) 128#32 = 1#1 := by decide
theorem cmp_all72 : ∀ s : Fin 56, IntOp.cmpi .slt (BitVec.ofNat 32 s.val) 72#32 = 1#1 := by decide
theorem cmp_16 : ∀ s : Fin 56, IntOp.cmpi .slt (BitVec.ofNat 32 s.val) 16#32 = if s.val < 16 then 1#1 else 0#1 := by decide

/-! ## The kernel's masked row sum of one sequence tile -/

/-- The reduced index (r, h) with the sequence coordinate s put back is (r, s, h). -/
theorem lift_ix (r : Fin 64) (s : Fin 56) (h : Fin 768) :
    KernelIdeal.Gen.reduces_S64x56x768_S64x768.lift (ix2 r h) s = ix3 r s h := by
  funext a; match a with | ⟨0, _⟩ => rfl | ⟨1, _⟩ => rfl | ⟨2, _⟩ => rfl

/-- The masked tile sum at (r, h): the sum over the tile's 56 rows of the row's entry where the row number is below the
    threshold word 128 - 56 k, and of zero elsewhere. -/
theorem pay1_apply (i : KernelIdeal.grid0.Coords) (x : Vec Ideal KernelIdeal.S64x56x768 .f32) (r : Fin 64) (h : Fin 768) :
    KernelIdeal.Gen.k0_pay1 (F := Ideal) i x (ix2 r h)
      = ∑ s : Fin 56, Scalar.select (IntOp.cmpi .slt (BitVec.ofNat 32 s.val)
          (Scalar.subi 128#32 (Scalar.muli (BitVec.ofNat 32 (i 1).val) 56#32))) (x (ix3 r s h)) (0 : EReal) := by
  unfold KernelIdeal.Gen.k0_pay1
  refine (Ideal.multiReduction_add_single _ 0x00000000#32 KernelIdeal.Gen.reduces_S64x56x768_S64x768 (.inl rfl) rfl (ix2 r h)).trans ?_
  refine Finset.sum_congr rfl fun (s : Fin 56) _ => ?_
  show Scalar.select (IntOp.cmpi .slt (BitVec.ofNat 32 (0 * 56 + s.val)) _)
      (x (KernelIdeal.Gen.reduces_S64x56x768_S64x768.lift (ix2 r h) s)) (Ideal.ofBits .f32 0x00000000#32) = _
  rw [lift_ix, Ideal.ofBits_zero_f32, Nat.zero_mul, Nat.zero_add]
  rfl

/-- Tile 0: every row is in range (56 ≤ 128). -/
theorem pay1_tile0 (i : KernelIdeal.grid0.Coords) (hi : (i 1).val = 0) (x : Vec Ideal KernelIdeal.S64x56x768 .f32)
    (r : Fin 64) (h : Fin 768) :
    KernelIdeal.Gen.k0_pay1 (F := Ideal) i x (ix2 r h) = ∑ s : Fin 56, x (ix3 r s h) := by
  rw [pay1_apply, hi]
  refine Finset.sum_congr rfl fun s _ => ?_
  rw [show Scalar.subi 128#32 (Scalar.muli (BitVec.ofNat 32 0) 56#32) = 128#32 from by decide, cmp_all128, select_one]

/-- Tile 1: every row is in range (56 ≤ 72). -/
theorem pay1_tile1 (i : KernelIdeal.grid0.Coords) (hi : (i 1).val = 1) (x : Vec Ideal KernelIdeal.S64x56x768 .f32)
    (r : Fin 64) (h : Fin 768) :
    KernelIdeal.Gen.k0_pay1 (F := Ideal) i x (ix2 r h) = ∑ s : Fin 56, x (ix3 r s h) := by
  rw [pay1_apply, hi]
  refine Finset.sum_congr rfl fun s _ => ?_
  rw [show Scalar.subi 128#32 (Scalar.muli (BitVec.ofNat 32 1) 56#32) = 72#32 from by decide, cmp_all72, select_one]

/-- Tile 2: only the first 16 rows are in range; the others count as zero whatever the tile holds there. -/
theorem pay1_tile2 (i : KernelIdeal.grid0.Coords) (hi : (i 1).val = 2) (x : Vec Ideal KernelIdeal.S64x56x768 .f32)
    (r : Fin 64) (h : Fin 768) :
    KernelIdeal.Gen.k0_pay1 (F := Ideal) i x (ix2 r h) = ∑ s : Fin 56, if s.val < 16 then x (ix3 r s h) else 0 := by
  rw [pay1_apply, hi]
  refine Finset.sum_congr rfl fun s _ => ?_
  rw [show Scalar.subi 128#32 (Scalar.muli (BitVec.ofNat 32 2) 56#32) = 16#32 from by decide, cmp_16]
  split
  · exact select_one _ _
  · exact select_zero _ _

/-- The first store of the accumulator is the tile sum itself. -/
theorem pay2_eq (i : KernelIdeal.grid0.Coords) (x : Vec Ideal KernelIdeal.S64x56x768 .f32) :
    KernelIdeal.Gen.k0_pay2 (F := Ideal) i x = KernelIdeal.Gen.k0_pay1 (F := Ideal) i x := by
  unfold KernelIdeal.Gen.k0_pay2
  exact shapeCast_self _ _

/-- A later store adds the tile sum to the accumulator. -/
theorem pay3_apply (i : KernelIdeal.grid0.Coords) (x : Vec Ideal KernelIdeal.S64x56x768 .f32)
    (v : Vec Ideal KernelIdeal.S64x768 .f32) (j : KernelIdeal.S64x768.Idx) :
    KernelIdeal.Gen.k0_pay3 (F := Ideal) i x v j = v j + KernelIdeal.Gen.k0_pay1 (F := Ideal) i x j := by
  unfold KernelIdeal.Gen.k0_pay3
  rw [shapeCast_self]
  rfl

/-! ## The reference's row sum of one sequence tile -/

theorem rlift_ix (r : Fin 64) (s : Fin 64) (h : Fin 768) :
    ReferenceIdeal.Gen.reduces_S64x64x768_S64x768.lift (ix2 r h) s = ix3 r s h := by
  funext a; match a with | ⟨0, _⟩ => rfl | ⟨1, _⟩ => rfl | ⟨2, _⟩ => rfl

/-- The reference's accumulator starts at zero. -/
theorem rpay1_apply (j : ReferenceIdeal.S64x768.Idx) : ReferenceIdeal.Gen.k0_pay1 (F := Ideal) j = 0 := by
  unfold ReferenceIdeal.Gen.k0_pay1
  rw [shapeCast_self]
  exact Ideal.ofBits_zero_f32

/-- Each step adds the sum over the tile's 64 rows. -/
theorem rpay2_apply (x : Vec Ideal ReferenceIdeal.S64x64x768 .f32) (v : Vec Ideal ReferenceIdeal.S64x768 .f32)
    (r : Fin 64) (h : Fin 768) :
    ReferenceIdeal.Gen.k0_pay2 (F := Ideal) x v (ix2 r h) = v (ix2 r h) + ∑ s : Fin 64, x (ix3 r s h) := by
  unfold ReferenceIdeal.Gen.k0_pay2
  rw [shapeCast_self]
  refine congrArg (v (ix2 r h) + ·) ?_
  refine (Ideal.multiReduction_add_single _ 0x00000000#32 ReferenceIdeal.Gen.reduces_S64x64x768_S64x768 (.inl rfl) rfl (ix2 r h)).trans ?_
  refine Finset.sum_congr rfl fun (s : Fin 64) _ => ?_
  rw [rlift_ix]

/-! ## Splitting a sum over 128 sequence positions into tiles -/

section Split
variable {M : Type*} [AddCommMonoid M]

/-- Two tiles of 64. -/
theorem split_64 (g : ℕ → M) :
    (0 + ∑ s : Fin 64, g s.val) + ∑ s : Fin 64, g (64 + s.val) = ∑ n ∈ Finset.range 128, g n := by
  rw [zero_add, Fin.sum_univ_eq_sum_range (fun n => g n) 64, Fin.sum_univ_eq_sum_range (fun n => g (64 + n)) 64,
    show (128 : ℕ) = 64 + 64 from rfl, Finset.sum_range_add]

/-- A sum over 56 positions of which only those below 16 count is the sum over those 16. -/
theorem masked_16 (g : ℕ → M) :
    ∑ n ∈ Finset.range 56, (if n < 16 then g n else 0) = ∑ n ∈ Finset.range 16, g n := by
  rw [show (56 : ℕ) = 16 + 40 from rfl, Finset.sum_range_add]
  rw [Finset.sum_congr rfl fun n hn => if_pos (Finset.mem_range.mp hn),
    Finset.sum_eq_zero fun n _ => if_neg (by omega), add_zero]

/-- Two tiles of 56 and the first 16 positions of a third. -/
theorem split_56 (g : ℕ → M) :
    (∑ s : Fin 56, g s.val + ∑ s : Fin 56, g (56 + s.val)) + ∑ s : Fin 56, (if s.val < 16 then g (112 + s.val) else 0)
      = ∑ n ∈ Finset.range 128, g n := by
  rw [Fin.sum_univ_eq_sum_range (fun n => g n) 56, Fin.sum_univ_eq_sum_range (fun n => g (56 + n)) 56,
    Fin.sum_univ_eq_sum_range (fun n => if n < 16 then g (112 + n) else 0) 56, masked_16 (fun n => g (112 + n)),
    show (128 : ℕ) = 56 + (56 + 16) from rfl, Finset.sum_range_add, Finset.sum_range_add, add_assoc]
  refine congrArg _ (congrArg _ (Finset.sum_congr rfl fun n _ => ?_))
  rw [← Nat.add_assoc]

end Split

/-! ## The two accumulators are the same sum over the 128 sequence positions -/

/-- Row r, column h of one batch block as a sequence, continued by zero beyond position 128. -/
def seq (X : Fin 64 → Fin 128 → Fin 768 → EReal) (r : Fin 64) (h : Fin 768) (n : ℕ) : EReal :=
  if hn : n < 128 then X r ⟨n, hn⟩ h else 0

theorem seq_of_lt (X : Fin 64 → Fin 128 → Fin 768 → EReal) (r : Fin 64) (h : Fin 768) (n : ℕ) (hn : n < 128) :
    seq X r h n = X r ⟨n, hn⟩ h := dif_pos hn

theorem seq_real (X : Fin 64 → Fin 128 → Fin 768 → EReal) (hX : ∀ r s h, ∃ a : ℝ, X r s h = (a : EReal))
    (r : Fin 64) (h : Fin 768) (n : ℕ) : ∃ a : ℝ, seq X r h n = (a : EReal) := by
  unfold seq
  split
  · exact hX _ _ _
  · exact ⟨0, EReal.coe_zero.symm⟩

/-- The kernel's accumulator after its three sequence tiles (56 + 56 + 16 rows counted) at (r, h). -/
theorem accK_apply (i0 i1 i2 : KernelIdeal.grid0.Coords) (h0 : (i0 1).val = 0) (h1 : (i1 1).val = 1) (h2 : (i2 1).val = 2)
    (X : Fin 64 → Fin 128 → Fin 768 → EReal)
    (xK0 xK1 xK2 : Vec Ideal KernelIdeal.S64x56x768 .f32)
    (hK0 : ∀ (r : Fin 64) (s : Fin 56) (h : Fin 768), xK0 (ix3 r s h) = X r ⟨s.val, by omega⟩ h)
    (hK1 : ∀ (r : Fin 64) (s : Fin 56) (h : Fin 768), xK1 (ix3 r s h) = X r ⟨56 + s.val, by omega⟩ h)
    (hK2 : ∀ (r : Fin 64) (s : Fin 56) (h : Fin 768) (hs : s.val < 16), xK2 (ix3 r s h) = X r ⟨112 + s.val, by omega⟩ h)
    (r : Fin 64) (h : Fin 768) :
    KernelIdeal.Gen.k0_pay3 (F := Ideal) i2 xK2 (KernelIdeal.Gen.k0_pay3 i1 xK1 (KernelIdeal.Gen.k0_pay2 i0 xK0)) (ix2 r h)
      = ∑ n ∈ Finset.range 128, seq X r h n := by
  rw [pay3_apply, pay3_apply, pay2_eq, pay1_tile0 i0 h0, pay1_tile1 i1 h1, pay1_tile2 i2 h2]
  have e0 : ∑ s : Fin 56, xK0 (ix3 r s h) = ∑ s : Fin 56, seq X r h s.val :=
    Finset.sum_congr rfl fun s _ => by rw [hK0, seq_of_lt X r h s.val (by omega)]
  have e1 : ∑ s : Fin 56, xK1 (ix3 r s h) = ∑ s : Fin 56, seq X r h (56 + s.val) :=
    Finset.sum_congr rfl fun s _ => by rw [hK1, seq_of_lt X r h (56 + s.val) (by omega)]
  have e2 : ∑ s : Fin 56, (if s.val < 16 then xK2 (ix3 r s h) else 0)
      = ∑ s : Fin 56, (if s.val < 16 then seq X r h (112 + s.val) else 0) :=
    Finset.sum_congr rfl fun s _ => by
      by_cases hs : s.val < 16
      · rw [if_pos hs, if_pos hs, hK2 r s h hs, seq_of_lt X r h (112 + s.val) (by omega)]
      · rw [if_neg hs, if_neg hs]
  rw [e0, e1, e2, split_56]

/-- The reference's accumulator after its two sequence tiles (64 + 64 rows) at (r, h). -/
theorem accR_apply (X : Fin 64 → Fin 128 → Fin 768 → EReal)
    (xR0 xR1 : Vec Ideal ReferenceIdeal.S64x64x768 .f32)
    (hR0 : ∀ (r : Fin 64) (s : Fin 64) (h : Fin 768), xR0 (ix3 r s h) = X r ⟨s.val, by omega⟩ h)
    (hR1 : ∀ (r : Fin 64) (s : Fin 64) (h : Fin 768), xR1 (ix3 r s h) = X r ⟨64 + s.val, by omega⟩ h)
    (r : Fin 64) (h : Fin 768) :
    ReferenceIdeal.Gen.k0_pay2 (F := Ideal) xR1 (ReferenceIdeal.Gen.k0_pay2 xR0 (ReferenceIdeal.Gen.k0_pay1 (F := Ideal))) (ix2 r h)
      = ∑ n ∈ Finset.range 128, seq X r h n := by
  rw [rpay2_apply, rpay2_apply, rpay1_apply]
  have e0 : ∑ s : Fin 64, xR0 (ix3 r s h) = ∑ s : Fin 64, seq X r h s.val :=
    Finset.sum_congr rfl fun s _ => by rw [hR0, seq_of_lt X r h s.val (by omega)]
  have e1 : ∑ s : Fin 64, xR1 (ix3 r s h) = ∑ s : Fin 64, seq X r h (64 + s.val) :=
    Finset.sum_congr rfl fun s _ => by rw [hR1, seq_of_lt X r h (64 + s.val) (by omega)]
  rw [e0, e1, split_64]

/-- The sum over the sequence of finite entries is finite. -/
theorem seqsum_real (X : Fin 64 → Fin 128 → Fin 768 → EReal) (hX : ∀ r s h, ∃ a : ℝ, X r s h = (a : EReal))
    (r : Fin 64) (h : Fin 768) : ∃ a : ℝ, ∑ n ∈ Finset.range 128, seq X r h n = (a : EReal) :=
  sum_real _ _ fun n => seq_real X hX r h n

end Cert.Bridge

end
-- ==== Proof.MathTail.lean ====
import proofs.«157860_g2000004684805239_pallasbulk_542_10_alg».proof.Proof.Gen.KernelIdeal.Skeleton
import proofs.«157860_g2000004684805239_pallasbulk_542_10_alg».proof.Proof.Gen.ReferenceIdeal.Skeleton
import proofs.«157860_g2000004684805239_pallasbulk_542_10_alg».proof.Proof.MathReal
import Idealize.ShloMosaic.Lib.ValueIdx
import Idealize.ShloMosaic.PureOps.Ideal.Laws

/-! The epilogues of the two programs at the ideal values, as functions of the accumulator. The kernel scales the
    accumulator by the word 1/128 and then multiplies by the first weight matrix; the reference multiplies first and
    scales the product. Over finite entries the two agree (a real factor moves out of a finite sum of products of
    reals); a change of float format is the identity on extended reals. Everything after that first product — bias,
    maximum with zero, second product, bias, and the logarithm of the softmax along the rows — is the same chain of
    operations on both sides and is carried as one function of the first product's value. -/

noncomputable section

namespace Cert.Bridge

open Idealize.ShloMosaic Idealize.ShloMosaic.ValueIdx

/-- The word of 1/128 denotes a real (it is never evaluated further). -/
theorem scale_real : ∃ a : ℝ, Ideal.ofBits .f32 0x3C000000#32 = (a : EReal) := by
  have h1 : ¬ ((0x3C000000#32 : BitVec 32).extractLsb' 23 8).toNat = 2 ^ 8 - 1 := by decide
  show ∃ a : ℝ, Ideal.ieee 8 23 (0x3C000000#32 : BitVec 32) = a
  unfold Ideal.ieee
  simp only [if_neg h1]
  split_ifs <;> exact ⟨_, rfl⟩

open Cert.ReferenceIdeal Cert.ReferenceIdeal.Gen in
/-- Everything after the first matrix product, as one function of that product's value `pre` : bias, maximum with
    zero, the second product, bias, and the logarithm of the softmax along each row. -/
def tail (pre : FVec Ideal S64x768 .f32) (v18 : FVec Ideal S1x768 .f32) (v23 : FVec Ideal S768x384 .f32)
    (v25 : FVec Ideal S1x384 .f32) : FVec Ideal S64x384 .f32 :=
  have v19 : FVec Ideal S64x768 .f32 := broadcastTo S64x768 v18 broadcasts_S1x768_S64x768
  have v20 : FVec Ideal S64x768 .f32 := addf pre v19
  have cst_16 : Ideal .f32 := Scalar.ofBits .f32 0x00000000#32
  have v21 : FVec Ideal S64x768 .f32 := broadcast S64x768 cst_16
  have v22 : FVec Ideal S64x768 .f32 := maximumf v20 v21
  have cst_19 : FVec Ideal S64x384 .f32 := constant S64x384 .f32 0x00000000#32
  have v24 : FVec Ideal S64x384 .f32 := matmul dot_S64x768_S768x384_S64x384_1_0_0_1_n_n none v22 v23 cst_19
  have v26 : FVec Ideal S64x384 .f32 := broadcastTo S64x384 v25 broadcasts_S1x384_S64x384
  have v27 : FVec Ideal S64x384 .f32 := addf v24 v26
  have v28 : FVec Ideal S64 .f32 := multiReduction .maximumf [1] S64 v27 0xFF800000#32 reduces_S64x384_S64 (.inl rfl) rfl
  have v29 : FVec Ideal S64x1 .f32 := shapeCast S64x1 v28 shapeCasts_S64_S64x1
  have v30 : FVec Ideal S64x384 .f32 := broadcastTo S64x384 v29 broadcasts_S64x1_S64x384
  have v31 : FVec Ideal S64x384 .f32 := subf v27 v30
  have v32 : FVec Ideal S64x384 .f32 := exp v31
  have v33 : FVec Ideal S64 .f32 := multiReduction .add [1] S64 v32 0x00000000#32 reduces_S64x384_S64 (.inl rfl) rfl
  have v34 : FVec Ideal S64x1 .f32 := shapeCast S64x1 v33 shapeCasts_S64_S64x1
  have v35 : FVec Ideal S64x1 .f32 := log v34
  have v36 : FVec Ideal S64x384 .f32 := broadcastTo S64x384 v35 broadcasts_S64x1_S64x384
  have v37 : FVec Ideal S64x384 .f32 := subf v31 v36
  v37

/-- The first matrix product into the zero accumulator. -/
abbrev prod1 (a : FVec Ideal ReferenceIdeal.S64x768 .f32) (w1 : FVec Ideal ReferenceIdeal.S768x768 .f32) :
    FVec Ideal ReferenceIdeal.S64x768 .f32 :=
  matmul (F := Ideal) (φ₁ := .f32) (φ₂ := .f32) ReferenceIdeal.dot_S64x768_S768x768_S64x768_1_0_0_1_n_n none a w1
    (constant (F := Ideal) ReferenceIdeal.S64x768 .f32 0x00000000#32)

/-- The broadcast of the word of 1/128. -/
abbrev scale : FVec Ideal ReferenceIdeal.S64x768 .f32 :=
  broadcast ReferenceIdeal.S64x768 (Scalar.ofBits (F := Ideal) .f32 0x3C000000#32)

/-- The reference's epilogue: the first product scaled by 1/128, then the common chain. -/
theorem reference_tail (acc : FVec Ideal ReferenceIdeal.S64x768 .f32) (w1 : FVec Ideal ReferenceIdeal.S768x768 .f32)
    (b1 : FVec Ideal ReferenceIdeal.S1x768 .f32) (w2 : FVec Ideal ReferenceIdeal.S768x384 .f32) (b2 : FVec Ideal ReferenceIdeal.S1x384 .f32) :
    ReferenceIdeal.Gen.k0_pay3 (F := Ideal) acc w1 b1 w2 b2 = tail (mulf (prod1 acc w1) scale) b1 w2 b2 := rfl

/-- The kernel's epilogue: the product of the accumulator scaled by 1/128, then the common chain (the changes of
    float format before each product are the identity). -/
theorem kernel_tail (acc : FVec Ideal ReferenceIdeal.S64x768 .f32) (w1 : FVec Ideal ReferenceIdeal.S768x768 .f32)
    (b1 : FVec Ideal ReferenceIdeal.S1x768 .f32) (w2 : FVec Ideal ReferenceIdeal.S768x384 .f32) (b2 : FVec Ideal ReferenceIdeal.S1x384 .f32) :
    KernelIdeal.Gen.k0_pay4 (F := Ideal) acc w1 b1 w2 b2 = tail (prod1 (mulf acc scale) w1) b1 w2 b2 := rfl

/-- Over a finite accumulator and finite weights, scaling by 1/128 before the first product is scaling after it:
    Σ_k (a_k · c) · w_kj = (Σ_k a_k · w_kj) · c. -/
theorem scale_comm (acc : FVec Ideal ReferenceIdeal.S64x768 .f32) (w1 : FVec Ideal ReferenceIdeal.S768x768 .f32)
    (hacc : ∀ j, ∃ a : ℝ, acc j = (a : EReal)) (hw : ∀ j, ∃ a : ℝ, w1 j = (a : EReal)) :
    prod1 (mulf acc scale) w1 = mulf (prod1 acc w1) scale := by
  funext j
  rw [mulf_apply]
  show FloatOps.matmul _ none _ _ (constant _ .f32 0x00000000#32) j = FloatOps.matmul _ none _ _ (constant _ .f32 0x00000000#32) j * _
  rw [Ideal.matmul_constant_zero_apply, Ideal.matmul_constant_zero_apply]
  exact sum_scale (fun k => acc (ReferenceIdeal.dot_S64x768_S768x768_S64x768_1_0_0_1_n_n.lhsIdx j k))
    (fun k => w1 (ReferenceIdeal.dot_S64x768_S768x768_S64x768_1_0_0_1_n_n.rhsIdx j k)) _
    (fun k => hacc _) (fun k => hw _) scale_real

/-- So, over a finite accumulator and finite first weights, the two epilogues agree. -/
theorem tails_eq (acc : FVec Ideal ReferenceIdeal.S64x768 .f32) (w1 : FVec Ideal ReferenceIdeal.S768x768 .f32)
    (b1 : FVec Ideal ReferenceIdeal.S1x768 .f32) (w2 : FVec Ideal ReferenceIdeal.S768x384 .f32) (b2 : FVec Ideal ReferenceIdeal.S1x384 .f32)
    (hacc : ∀ j, ∃ a : ℝ, acc j = (a : EReal)) (hw : ∀ j, ∃ a : ℝ, w1 j = (a : EReal)) :
    KernelIdeal.Gen.k0_pay4 (F := Ideal) acc w1 b1 w2 b2 = ReferenceIdeal.Gen.k0_pay3 (F := Ideal) acc w1 b1 w2 b2 := by
  rw [kernel_tail, reference_tail, scale_comm acc w1 hacc hw]

end Cert.Bridge

end
-- ==== Proof.MathBridge.lean ====
import proofs.«157860_g2000004684805239_pallasbulk_542_10_alg».proof.Proof.MathSum
import proofs.«157860_g2000004684805239_pallasbulk_542_10_alg».proof.Proof.MathTail

/-! The two payload chains at the ideal values agree: the accumulators are the same finite sum over the 128 sequence
    positions (MathSum), and over a finite accumulator and finite first weights the two epilogues agree (MathTail). -/

noncomputable section

namespace Cert.Bridge

open Idealize.ShloMosaic Idealize.ShloMosaic.ValueIdx

theorem payloads_eq
    (i0 i1 i2 : KernelIdeal.grid0.Coords) (h0 : (i0 1).val = 0) (h1 : (i1 1).val = 1) (h2 : (i2 1).val = 2)
    (X : Fin 64 → Fin 128 → Fin 768 → EReal)
    (xK0 xK1 xK2 : Vec Ideal KernelIdeal.S64x56x768 .f32) (xR0 xR1 : Vec Ideal ReferenceIdeal.S64x64x768 .f32)
    (w1 : Vec Ideal KernelIdeal.S768x768 .f32) (b1 : Vec Ideal KernelIdeal.S1x768 .f32)
    (w2 : Vec Ideal KernelIdeal.S768x384 .f32) (b2 : Vec Ideal KernelIdeal.S1x384 .f32)
    (hK0 : ∀ (r : Fin 64) (s : Fin 56) (h : Fin 768), xK0 (ValueIdx.ix3 r s h) = X r ⟨s.val, by omega⟩ h)
    (hK1 : ∀ (r : Fin 64) (s : Fin 56) (h : Fin 768), xK1 (ValueIdx.ix3 r s h) = X r ⟨56 + s.val, by omega⟩ h)
    (hK2 : ∀ (r : Fin 64) (s : Fin 56) (h : Fin 768) (hs : s.val < 16),
      xK2 (ValueIdx.ix3 r s h) = X r ⟨112 + s.val, by omega⟩ h)
    (hR0 : ∀ (r : Fin 64) (s : Fin 64) (h : Fin 768), xR0 (ValueIdx.ix3 r s h) = X r ⟨s.val, by omega⟩ h)
    (hR1 : ∀ (r : Fin 64) (s : Fin 64) (h : Fin 768), xR1 (ValueIdx.ix3 r s h) = X r ⟨64 + s.val, by omega⟩ h)
    (hXfin : ∀ r s h, ∃ a : ℝ, X r s h = (a : EReal))
    (hWfin : ∀ j, ∃ a : ℝ, w1 j = (a : EReal)) :
    KernelIdeal.Gen.k0_pay4 (F := Ideal)
        (KernelIdeal.Gen.k0_pay3 i2 xK2 (KernelIdeal.Gen.k0_pay3 i1 xK1 (KernelIdeal.Gen.k0_pay2 i0 xK0))) w1 b1 w2 b2
      = ReferenceIdeal.Gen.k0_pay3 (F := Ideal)
        (ReferenceIdeal.Gen.k0_pay2 xR1 (ReferenceIdeal.Gen.k0_pay2 xR0 (ReferenceIdeal.Gen.k0_pay1 (F := Ideal)))) w1 b1 w2 b2 := by
  have hacc : KernelIdeal.Gen.k0_pay3 (F := Ideal) i2 xK2 (KernelIdeal.Gen.k0_pay3 i1 xK1 (KernelIdeal.Gen.k0_pay2 i0 xK0))
      = ReferenceIdeal.Gen.k0_pay2 (F := Ideal) xR1 (ReferenceIdeal.Gen.k0_pay2 xR0 (ReferenceIdeal.Gen.k0_pay1 (F := Ideal))) :=
    funext fun j => by
      obtain ⟨r, h, rfl⟩ : ∃ (r : Fin 64) (h : Fin 768), j = ix2 r h := ⟨j 0, j 1, eq_ix2 j⟩
      rw [accK_apply i0 i1 i2 h0 h1 h2 X xK0 xK1 xK2 hK0 hK1 hK2 r h, accR_apply X xR0 xR1 hR0 hR1 r h]
  have hfin : ∀ j, ∃ a : ℝ,
      ReferenceIdeal.Gen.k0_pay2 (F := Ideal) xR1 (ReferenceIdeal.Gen.k0_pay2 xR0 (ReferenceIdeal.Gen.k0_pay1 (F := Ideal))) j
        = (a : EReal) := fun j => by
    obtain ⟨r, h, rfl⟩ : ∃ (r : Fin 64) (h : Fin 768), j = ix2 r h := ⟨j 0, j 1, eq_ix2 j⟩
    rw [accR_apply X xR0 xR1 hR0 hR1 r h]
    exact seqsum_real X hXfin r h
  rw [hacc]
  exact tails_eq _ w1 b1 w2 b2 hfin hWfin

end Cert.Bridge

end
-- ==== Proof.Finite.lean ====
/-
  Finite inputs are real. The precondition says of each argument array that every entry's absolute value is
  below +inf; an extended real with that property is a real number. Only `x` and the first layer's weights are
  needed: moving the factor 1/128 across the first matrix product is a law of the reals, false at the infinities.
-/
import proofs.«157860_g2000004684805239_pallasbulk_542_10_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

variable [Facts]

/-- The rank-zero shape has one index. -/
instance : Subsingleton S_.Idx := ⟨fun a b => funext fun d => d.elim0⟩

/-- The word of +inf denotes the top of the extended reals. -/
theorem top_word : Ideal.ofBits .f32 0x7F800000#32 = (⊤ : EReal) := by simp [Ideal.ofBits, Ideal.ieee]

/-- An extended real whose absolute value max(x, -x) is below +inf is a real number. -/
theorem real_of_abs_lt_top (x : EReal) (h : Ideal.cmp .olt (max x (-x)) ⊤ = 1#1) : ∃ r : ℝ, x = (r : EReal) := by
  induction x using EReal.rec with
  | bot => exfalso; simp [Ideal.cmp] at h
  | coe r => exact ⟨r, rfl⟩
  | top => exfalso; simp [Ideal.cmp] at h

/-- The same, as the printed comparison states it of one entry. -/
theorem real_of_entry (x : EReal)
    (h : Ideal.cmp .olt (max x (-x)) (Ideal.ofBits .f32 0x7F800000#32) = 1#1) : ∃ r : ℝ, x = (r : EReal) := by
  rw [top_word] at h
  exact real_of_abs_lt_top x h

/-- Under the precondition every entry of `x` and of the first layer's weights is a real number. -/
theorem reals_of_pre (a0 : FVec Ideal S128x128x768 .f32) (a1 : FVec Ideal S768x768 .f32) (a2 : FVec Ideal S1x768 .f32)
    (a3 : FVec Ideal S768x384 .f32) (a4 : FVec Ideal S1x384 .f32)
    (h : fn (F := Ideal) a0 a1 a2 a3 a4 = fun _ => 1#1) :
    (∀ i, ∃ r : ℝ, a0 i = (r : EReal)) ∧ (∀ i, ∃ r : ℝ, a1 i = (r : EReal)) := by
  have h' := congrFun h ValueIdx.ix0
  dsimp only [fn, fn_part1] at h'
  have h1 := (IntOp.andi_eq_one.1 h').1
  have h2 := (IntOp.andi_eq_one.1 h1).1
  have h3 := (IntOp.andi_eq_one.1 h2).1
  obtain ⟨hx, hw⟩ := IntOp.andi_eq_one.1 h3
  exact ⟨fun i => real_of_entry (a0 i) (Host.reduce_andi_all _ _ _ _ _ hx i),
    fun i => real_of_entry (a1 i) (Host.reduce_andi_all _ _ _ _ _ hw i)⟩

end Cert.Finite

end
-- ==== Proof.Algebraic.lean ====
/-
  The two programs' results are one array. Row p = 64·b + r of the result depends on batch block b of `x` only:
  the kernel's accumulator holds the sums over the three sequence tiles 0..55, 56..111, 112..127 (the third masked
  to the positions inside the array), the reference's the sums over the two tiles 0..63, 64..127 added to zero —
  both the sum over all 128 positions. The kernel then scales by 1/128 before the first matrix product and the
  reference after it; for real entries these agree, and the inputs are real under the precondition. Everything
  after that product is the same function on both sides.
-/
import proofs.«157860_g2000004684805239_pallasbulk_542_10_alg».proof.Defs
import proofs.«157860_g2000004684805239_pallasbulk_542_10_alg».proof.Proof.KValue
import proofs.«157860_g2000004684805239_pallasbulk_542_10_alg».proof.Proof.RefFinal
import proofs.«157860_g2000004684805239_pallasbulk_542_10_alg».proof.Proof.MathBridge
import proofs.«157860_g2000004684805239_pallasbulk_542_10_alg».proof.Proof.Finite

noncomputable section

namespace Cert.Proof.Results

open Idealize.ShloMosaic Idealize.ShloMosaic.TcCoe Idealize.SL.Sem Idealize.ShloMosaic.ValueIdx

/-- From memories that agree on the five arguments, finite on the kernel's side, the two result arrays (as the two
    frames' proof data compute them) are equal, index by index. -/
theorem results_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) = (fun _ => 1#1))
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    ((Cert.ReferenceIdeal.Gen.dats m' 0 c).arrAt 5 Cert.ReferenceIdeal.cfg0.N : Cert.KernelIdeal.S128x384.Idx → EReal)
      = ((Cert.KernelIdeal.Hand.dats m 0 c).arrAt 5 Cert.KernelIdeal.cfg0.N : Cert.KernelIdeal.S128x384.Idx → EReal) := by
  obtain ⟨hx, hw⟩ := Cert.Finite.reals_of_pre _ _ _ _ _ hpre
  funext idx
  obtain ⟨p, n, rfl⟩ : ∃ (p : Fin 128) (n : Fin 384), idx = ix2 p n := ⟨idx 0, idx 1, eq_ix2 idx⟩
  obtain ⟨b, r, rfl⟩ : ∃ (b : Fin 2) (r : Fin 64), p = (⟨64 * b.val + r.val, by omega⟩ : Fin 128) :=
    ⟨⟨p.val / 64, by omega⟩, ⟨p.val % 64, Nat.mod_lt _ (by norm_num)⟩, Fin.ext (by show p.val = 64 * (p.val / 64) + p.val % 64; omega)⟩
  refine (Cert.ReferenceIdeal.RefValue.final5_apply (F := Ideal) m' c b r n).trans ?_
  refine Eq.trans ?_ (Cert.KernelIdeal.KValue.final5_apply (F := Ideal) m c b r n).symm
  -- the weights and biases: each side's block is the whole array, and the arrays agree
  have hw1 : (Cert.ReferenceIdeal.Gen.iblk m' c 1 (Cert.ReferenceIdeal.RefValue.pt b 1) : Vec Ideal Cert.KernelIdeal.S768x768 .f32)
      = Cert.KernelIdeal.Gen.iblk m c 1 (Cert.KernelIdeal.KValue.pt b 2) :=
    (Cert.ReferenceIdeal.RefValue.iblk1_eq (F := Ideal) m' c _).trans (e1.trans (Cert.KernelIdeal.KValue.iblk1_eq (F := Ideal) m c _).symm)
  have hw2 : (Cert.ReferenceIdeal.Gen.iblk m' c 2 (Cert.ReferenceIdeal.RefValue.pt b 1) : Vec Ideal Cert.KernelIdeal.S1x768 .f32)
      = Cert.KernelIdeal.Gen.iblk m c 2 (Cert.KernelIdeal.KValue.pt b 2) :=
    (Cert.ReferenceIdeal.RefValue.iblk2_eq (F := Ideal) m' c _).trans (e2.trans (Cert.KernelIdeal.KValue.iblk2_eq (F := Ideal) m c _).symm)
  have hw3 : (Cert.ReferenceIdeal.Gen.iblk m' c 3 (Cert.ReferenceIdeal.RefValue.pt b 1) : Vec Ideal Cert.KernelIdeal.S768x384 .f32)
      = Cert.KernelIdeal.Gen.iblk m c 3 (Cert.KernelIdeal.KValue.pt b 2) :=
    (Cert.ReferenceIdeal.RefValue.iblk3_eq (F := Ideal) m' c _).trans (e3.trans (Cert.KernelIdeal.KValue.iblk3_eq (F := Ideal) m c _).symm)
  have hw4 : (Cert.ReferenceIdeal.Gen.iblk m' c 4 (Cert.ReferenceIdeal.RefValue.pt b 1) : Vec Ideal Cert.KernelIdeal.S1x384 .f32)
      = Cert.KernelIdeal.Gen.iblk m c 4 (Cert.KernelIdeal.KValue.pt b 2) :=
    (Cert.ReferenceIdeal.RefValue.iblk4_eq (F := Ideal) m' c _).trans (e4.trans (Cert.KernelIdeal.KValue.iblk4_eq (F := Ideal) m c _).symm)
  rw [hw1, hw2, hw3, hw4, Cert.KernelIdeal.KValue.acc_pt2]
  -- batch block b of x, and the five tiles read off it
  let X : Fin 64 → Fin 128 → Fin 768 → EReal := fun r s h =>
    (m ((c.tc : Thread Cert.KernelIdeal.nD Cert.KernelIdeal.τ).loc Cert.KernelIdeal.main_arg0) : Cert.KernelIdeal.S128x128x768.Idx → EReal)
      (ix3 (⟨64 * b.val + r.val, by omega⟩ : Fin 128) s h)
  have keyK : ∀ (k : Fin 3) (r : Fin 64) (s : Fin 56) (h : Fin 768) (hs : 56 * k.val + s.val < 128),
      Cert.KernelIdeal.Hand.tile m c (Cert.KernelIdeal.KValue.pt b k) (ix3 r s h) = X r ⟨56 * k.val + s.val, hs⟩ h :=
    fun k r s h hs => Cert.KernelIdeal.KValue.tile_ix (F := Ideal) m c b k r s h hs
  have keyR : ∀ (k : Fin 2) (r s : Fin 64) (h : Fin 768),
      (Cert.ReferenceIdeal.Gen.iblk m' c 0 (Cert.ReferenceIdeal.RefValue.pt b k) : Vec Ideal Cert.ReferenceIdeal.S64x64x768 .f32) (ix3 r s h)
        = X r ⟨64 * k.val + s.val, by omega⟩ h :=
    fun k r s h => (Cert.ReferenceIdeal.RefValue.iblk0_ix (F := Ideal) m' c b k r s h).trans (congrFun e0 _)
  refine congrFun (Cert.Bridge.payloads_eq
    (Cert.KernelIdeal.grid0.coords (Cert.KernelIdeal.KValue.pt b 0)) (Cert.KernelIdeal.grid0.coords (Cert.KernelIdeal.KValue.pt b 1))
    (Cert.KernelIdeal.grid0.coords (Cert.KernelIdeal.KValue.pt b 2))
    (Cert.KernelIdeal.KValue.coords_pt b 0) (Cert.KernelIdeal.KValue.coords_pt b 1) (Cert.KernelIdeal.KValue.coords_pt b 2)
    X
    (Cert.KernelIdeal.Hand.tile m c (Cert.KernelIdeal.KValue.pt b 0)) (Cert.KernelIdeal.Hand.tile m c (Cert.KernelIdeal.KValue.pt b 1))
    (Cert.KernelIdeal.Hand.tile m c (Cert.KernelIdeal.KValue.pt b 2))
    (Cert.ReferenceIdeal.Gen.iblk m' c 0 (Cert.ReferenceIdeal.RefValue.pt b 0)) (Cert.ReferenceIdeal.Gen.iblk m' c 0 (Cert.ReferenceIdeal.RefValue.pt b 1))
    (Cert.KernelIdeal.Gen.iblk m c 1 (Cert.KernelIdeal.KValue.pt b 2)) (Cert.KernelIdeal.Gen.iblk m c 2 (Cert.KernelIdeal.KValue.pt b 2))
    (Cert.KernelIdeal.Gen.iblk m c 3 (Cert.KernelIdeal.KValue.pt b 2)) (Cert.KernelIdeal.Gen.iblk m c 4 (Cert.KernelIdeal.KValue.pt b 2))
    (fun r s h => (keyK 0 r s h (by show 56 * 0 + s.val < 128; omega)).trans (congrArg (fun q => X r q h) (Fin.ext (by show 56 * 0 + s.val = s.val; omega))))
    (fun r s h => (keyK 1 r s h (by show 56 * 1 + s.val < 128; omega)).trans (congrArg (fun q => X r q h) (Fin.ext (by show 56 * 1 + s.val = 56 + s.val; omega))))
    (fun r s h hs => (keyK 2 r s h (by show 56 * 2 + s.val < 128; omega)).trans (congrArg (fun q => X r q h) (Fin.ext (by show 56 * 2 + s.val = 112 + s.val; omega))))
    (fun r s h => (keyR 0 r s h).trans (congrArg (fun q => X r q h) (Fin.ext (by show 64 * 0 + s.val = s.val; omega))))
    (fun r s h => (keyR 1 r s h).trans (congrArg (fun q => X r q h) (Fin.ext (by show 64 * 1 + s.val = 64 + s.val; omega))))
    (fun r s h => hx _)
    (fun j => by rw [Cert.KernelIdeal.KValue.iblk1_eq (F := Ideal) m c _]; exact hw j)).symm (ix2 r n)

/-- `Cert.algebraic_KernelIdeal_ReferenceIdeal`: both programs run, the kernel's to its frame's result array and
    the reference's to its own, and the two arrays are equal. -/
theorem algebraic : Cert.algebraic_KernelIdeal_ReferenceIdeal := by
  intro m ρ m' ρ' hpre hagree
  refine ⟨fun c => (Cert.KernelIdeal.Hand.dats m 0 c).arrAt 5 Cert.KernelIdeal.cfg0.N, Cert.KernelIdeal.KValue.run (F := Ideal) m ρ, ?_⟩
  refine (θ_run Cert.ReferenceIdeal.defs _ _).mono (fun _ h c => ⟨(h c).1.trans ?_, (h c).2⟩)
    (Cert.ReferenceIdeal.RefValue.run (F := Ideal) m' ρ')
  exact results_eq m m' c (hpre c) (hagree c).1 (hagree c).2.1 (hagree c).2.2.1 (hagree c).2.2.2.1 (hagree c).2.2.2.2

end Cert.Proof.Results

end
-- ==== Proof.lean ====
/-
  The certificate of the sequence-tiled mean-pooling classifier head: out = log_softmax(relu(mean_S(x)·W1 + b1)·W2 + b2),
  x : [128, 128, 768]. Both programs keep a [64, 768] accumulator over a sequence grid axis. The kernel tiles the
  sequence by 56 (three tiles per batch block, the last overhanging the array and masked) and scales the sum by
  1/128 before the first matrix product; the reference tiles by 64 (two tiles) and scales after it. The frames of
  the kernel (as printed and idealized) are proved by running its body in its three cases k = 0, 1, 2 with the
  accumulator named between grid points; the reference's frame is its generated one; the idealization rewrote
  nothing; and at the ideal instance the two result arrays are equal index by index (Proof/Algebraic.lean).
-/
import proofs.«157860_g2000004684805239_pallasbulk_542_10_alg».proof.Defs
import proofs.«157860_g2000004684805239_pallasbulk_542_10_alg».proof.Proof.Gen.Kernel
import proofs.«157860_g2000004684805239_pallasbulk_542_10_alg».proof.Proof.Gen.KernelIdeal
import proofs.«157860_g2000004684805239_pallasbulk_542_10_alg».proof.Proof.Gen.ReferenceIdeal
import proofs.«157860_g2000004684805239_pallasbulk_542_10_alg».proof.Proof.Gen.ReferenceIdeal.Frame
import proofs.«157860_g2000004684805239_pallasbulk_542_10_alg».proof.Proof.Gen.Pre_finite_inputs
import proofs.«157860_g2000004684805239_pallasbulk_542_10_alg».proof.Proof.WFrame
import proofs.«157860_g2000004684805239_pallasbulk_542_10_alg».proof.Proof.KFrame
import proofs.«157860_g2000004684805239_pallasbulk_542_10_alg».proof.Proof.Algebraic
import Idealize.ShloMosaic.Adequacy
import Idealize.ShloMosaic.Init

noncomputable section

namespace Cert.Proof

open Idealize.ShloMosaic Idealize.SL.Sem

/-- The printed kernel runs and leaves its arguments unchanged. -/
theorem frame_k : Cert.frame_Kernel := fun m ρ _ => Cert.Kernel.Hand.frame m ρ
/-- So does its idealization, -/
theorem frame_ki : Cert.frame_KernelIdeal := fun m ρ _ => Cert.KernelIdeal.Hand.frame m ρ
/-- and the reference. -/
theorem frame_ri : Cert.frame_ReferenceIdeal := fun m ρ _ => Cert.ReferenceIdeal.Gen.frame m ρ

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Results.algebraic⟩

end Cert.Proof

end
